-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S128x256 : Shape := ⟨2, ![128, 256]⟩
abbrev S128 : Shape := ⟨1, ![128]⟩
abbrev S256x128 : Shape := ⟨2, ![256, 128]⟩
abbrev S256 : Shape := ⟨1, ![256]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x128 .f32) (main_arg8 : FVec F S256 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S128 .f32) (main_arg5 : FVec F S128x256 .f32) (main_arg6 : FVec F S128 .f32) (main_arg7 : FVec F S256x128 .f32) (main_arg8 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S8x256x64x64 .f32) (main_arg1 : FVec F S128x256 .f32) (main_arg2 : FVec F S128 .f32) (main_arg3 : FVec F S128x256 .f32) (main_arg4 : FVec F S128 .f32) (main_arg5 : FVec F S128x256 .f32) (main_arg6 : FVec F S128 .f32) (main_arg7 : FVec F S256x128 .f32) (main_arg8 : FVec F S256 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_v13 main_v16
-- ==== Kernel.lean ====
abbrev S8x256x64x64 : Shape := ⟨4, ![8, 256, 64, 64]⟩
abbrev S128x256 : Shape := ⟨2, ![128, 256]⟩
abbrev S128 : Shape := ⟨1, ![128]⟩
abbrev S256x128 : Shape := ⟨2, ![256, 128]⟩
abbrev S256 : Shape := ⟨1, ![256]⟩
abbrev S8x256x4096 : Shape := ⟨3, ![8, 256, 4096]⟩
abbrev S128x1 : Shape := ⟨2, ![128, 1]⟩
abbrev S256x1 : Shape := ⟨2, ![256, 1]⟩
abbrev S1x256x4096 : Shape := ⟨3, ![1, 256, 4096]⟩
abbrev S1x256x1024 : Shape := ⟨3, ![1, 256, 1024]⟩
abbrev S128x4096 : Shape := ⟨2, ![128, 4096]⟩
abbrev S256x4096 : Shape := ⟨2, ![256, 4096]⟩
abbrev S256x1024 : Shape := ⟨2, ![256, 1024]⟩
abbrev S128x1024 : Shape := ⟨2, ![128, 1024]⟩
abbrev S1024x4096 : Shape := ⟨2, ![1024, 4096]⟩
abbrev S1024 : Shape := ⟨1, ![1024]⟩
abbrev S1024x1 : Shape := ⟨2, ![1024, 1]⟩
abbrev S1024x128 : Shape := ⟨2, ![1024, 128]⟩

abbrev nBuf : Space → Nat
  | .hbm => 16
  | .vmem => 14
  | .smem => 0
  | _ => 0

abbrev bufTy : (tb : Table) → Fin (tcTables nBuf tb) → BufTy
  | .hbm, ⟨0, _⟩ => ⟨S8x256x64x64, .f32⟩
  | .hbm, ⟨1, _⟩ => ⟨S128x256, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S256x128, .f32⟩
  | .hbm, ⟨8, _⟩ => ⟨S256, .f32⟩
  | .hbm, ⟨9, _⟩ => ⟨S8x256x4096, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S256x1, .f32⟩
  | .hbm, ⟨14, _⟩ => ⟨S8x256x4096, .f32⟩
  | .hbm, ⟨15, _⟩ => ⟨S8x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S128x256, .f32⟩
  | .local _ .vmem, ⟨3, _⟩ => ⟨S128x1, .f32⟩
  | .local _ .vmem, ⟨4, _⟩ => ⟨S128x256, .f32⟩
  | .local _ .vmem, ⟨5, _⟩ => ⟨S128x1, .f32⟩
  | .local _ .vmem, ⟨6, _⟩ => ⟨S128x256, .f32⟩
  | .local _ .vmem, ⟨7, _⟩ => ⟨S128x1, .f32⟩
  | .local _ .vmem, ⟨8, _⟩ => ⟨S256x128, .f32⟩
  | .local _ .vmem, ⟨9, _⟩ => ⟨S256x1, .f32⟩
  | .local _ .vmem, ⟨10, _⟩ => ⟨S1x256x1024, .f32⟩
  | .local _ .vmem, ⟨11, _⟩ => ⟨S1x256x1024, .f32⟩
  | .local _ .vmem, ⟨12, _⟩ => ⟨S128x4096, .bf16⟩
  | .local _ .vmem, ⟨13, _⟩ => ⟨S128x4096, .bf16⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 3 → Nat :=
  let c0 : Index := 0#32
  let c0_1 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, 0, v5.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S8x256x64x64_S8x256x4096 : S8x256x64x64.ShapeCasts S8x256x4096
  shapeCasts_S128_S128x1 : S128.ShapeCasts S128x1
  shapeCasts_S256_S256x1 : S256.ShapeCasts S256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  packedbf16_S128x4096_S128x4096_0_0 : (Rect.unit (s := S128x4096) ![0, 0] S128x4096.size inb_S128x4096_S128x4096_0_0).PackedRows (EltTy.packing .bf16)
  h_S1x256x1024 : 0 < S1x256x1024.numel
  shapeCasts_S1x256x1024_S256x1024 : S1x256x1024.ShapeCasts S256x1024
  broadcasts_S128x1_S128x1024 : S128x1.Broadcasts S128x1024
  reduces_S1024x4096_S1024 : S1024x4096.Reduces [1] S1024
  shapeCasts_S1024_S1024x1 : S1024.ShapeCasts S1024x1
  broadcasts_S1024x1_S1024x4096 : S1024x1.Broadcasts S1024x4096
  inb_S256x128_S256x128_0_0 : ∀ a, (![0, 0] : Fin 2 → Nat) a + S256x128.size a ≤ S256x128.size a
  h_S256x128 : 0 < S256x128.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  shapeCasts_S8x256x4096_S8x256x64x64 : S8x256x4096.ShapeCasts S8x256x64x64
  dot_S128x256_S256x4096_S128x4096_1_0_0_1_n_n_wf : DotDims.WF S128x256 S256x4096 S128x4096 [1] [0] [0] [1] [] []
  dot_S128x256_S256x1024_S128x1024_1_0_0_1_n_n_wf : DotDims.WF S128x256 S256x1024 S128x1024 [1] [0] [0] [1] [] []
  dot_S128x1024_S128x4096_S1024x4096_0_0_1_1_n_n_wf : DotDims.WF S128x1024 S128x4096 S1024x4096 [0] [0] [1] [1] [] []
  dot_S1024x4096_S128x4096_S1024x128_1_1_0_0_n_n_wf : DotDims.WF S1024x4096 S128x4096 S1024x128 [1] [1] [0] [0] [] []
  dot_S256x128_S1024x128_S256x1024_1_1_0_0_n_n_wf : DotDims.WF S256x128 S1024x128 S256x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1x256x1024.size a ≤ S1x256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x256x4096.size a
  hwx0_0 : ∀ i : grid0.Coords, EltTy.bits .f32 = 32 ∨ (Rect.block (s := S8x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S256x1.size a
  hwx0_8 : ∀ i : grid0.Coords, EltTy.bits .f32 = 32 ∨ (Rect.block (s := S256x1) S256x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S8x256x4096.size a
  hwx0_9 : ∀ i : grid0.Coords, EltTy.bits .f32 = 32 ∨ (Rect.block (s := S8x256x4096) S1x256x1024.size (cc0_transform_9 i) (hinb0_9 i)).WholeWords (EltTy.packing .f32)

variable [Facts₀]

def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S128x1024_S128x4096_S1024x4096_0_0_1_1_n_n : DotDims S128x1024 S128x4096 S1024x4096 where
  lhsContracting := [0]
  rhsContracting := [0]
  lhsNonContracting := [1]
  rhsNonContracting := [1]
  lhsBatch := []
  rhsBatch := []
  wf := dot_S128x1024_S128x4096_S1024x4096_0_0_1_1_n_n_wf
def dot_S1024x4096_S128x4096_S1024x128_1_1_0_0_n_n : DotDims S1024x4096 S128x4096 S1024x128 where
  lhsContracting := [1]
  rhsContracting := [1]
  lhsNonContracting := [0]
  rhsNonContracting := [0]
  lhsBatch := []
  rhsBatch := []
  wf := dot_S1024x4096_S128x4096_S1024x128_1_1_0_0_n_n_wf
def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S256x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x256x64x64 : Shape := ⟨4, ![8, 256, 64, 64]⟩
abbrev S128x256 : Shape := ⟨2, ![128, 256]⟩
abbrev S128 : Shape := ⟨1, ![128]⟩
abbrev S256x128 : Shape := ⟨2, ![256, 128]⟩
abbrev S256 : Shape := ⟨1, ![256]⟩
abbrev S8x256x4096 : Shape := ⟨3, ![8, 256, 4096]⟩
abbrev S8x4096x256 : Shape := ⟨3, ![8, 4096, 256]⟩
abbrev S8x4096x128 : Shape := ⟨3, ![8, 4096, 128]⟩
abbrev S1x1x128 : Shape := ⟨3, ![1, 1, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S1x1x256 : Shape := ⟨3, ![1, 1, 256]⟩

abbrev nBuf : Space → Nat
  | .hbm => 46
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S128x256, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S256x128, .f32⟩
  | .hbm, ⟨8, _⟩ => ⟨S256, .f32⟩
  | .hbm, ⟨9, _⟩ => ⟨S8x256x4096, .f32⟩
  | .hbm, ⟨10, _⟩ => ⟨S8x4096x256, .f32⟩
  | .hbm, ⟨11, _⟩ => ⟨S8x4096x128, .f32⟩
  | .hbm, ⟨12, _⟩ => ⟨S1x1x128, .f32⟩
  | .hbm, ⟨13, _⟩ => ⟨S8x4096x128, .f32⟩
  | .hbm, ⟨14, _⟩ => ⟨S8x4096x128, .f32⟩
  | .hbm, ⟨15, _⟩ => ⟨S8x4096x128, .f32⟩
  | .hbm, ⟨16, _⟩ => ⟨S1x1x128, .f32⟩
  | .hbm, ⟨17, _⟩ => ⟨S8x4096x128, .f32⟩
  | .hbm, ⟨18, _⟩ => ⟨S8x4096x128, .f32⟩
  | .hbm, ⟨19, _⟩ => ⟨S8x4096x128, .f32⟩
  | .hbm, ⟨20, _⟩ => ⟨S1x1x128, .f32⟩
  | .hbm, ⟨21, _⟩ => ⟨S8x4096x128, .f32⟩
  | .hbm, ⟨22, _⟩ => ⟨S8x4096x128, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x128, .f32⟩
  | .hbm, ⟨39, _⟩ => ⟨S8x4096x256, .f32⟩
  | .hbm, ⟨40, _⟩ => ⟨S1x1x256, .f32⟩
  | .hbm, ⟨41, _⟩ => ⟨S8x4096x256, .f32⟩
  | .hbm, ⟨42, _⟩ => ⟨S8x4096x256, .f32⟩
  | .hbm, ⟨43, _⟩ => ⟨S8x256x4096, .f32⟩
  | .hbm, ⟨44, _⟩ => ⟨S8x256x64x64, .f32⟩
  | .hbm, ⟨45, _⟩ => ⟨S8x256x64x64, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  shapeCasts_S8x256x64x64_S8x256x4096 : S8x256x64x64.ShapeCasts S8x256x4096
  transposes_S8x256x4096_S8x4096x256_0_2_1 : S8x256x4096.Transposes [0, 2, 1] S8x4096x256
  bcast_S128_S1x1x128_2 : S128.BroadcastsInDim S1x1x128 (![2] : Fin 1 → Fin S1x1x128.rank)
  bcast_S1x1x128_S8x4096x128_0_1_2 : S1x1x128.BroadcastsInDim S8x4096x128 (![0, 1, 2] : Fin 3 → Fin S8x4096x128.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  transposes_S8x4096x256_S8x256x4096_0_2_1 : S8x4096x256.Transposes [0, 2, 1] S8x256x4096
  shapeCasts_S8x256x4096_S8x256x64x64 : S8x256x4096.ShapeCasts S8x256x64x64
  dot_S8x4096x256_S128x256_S8x4096x128_2_1_01_0_n_n_wf : DotDims.WF S8x4096x256 S128x256 S8x4096x128 [2] [1] [0, 1] [0] [] []
  dot_S8x4096x128_S8x4096x128_S8x4096x4096_2_2_1_1_0_0_wf : DotDims.WF S8x4096x128 S8x4096x128 S8x4096x4096 [2] [2] [1] [1] [0] [0]
  dot_S8x4096x4096_S8x4096x128_S8x4096x128_2_1_1_2_0_0_wf : DotDims.WF S8x4096x4096 S8x4096x128 S8x4096x128 [2] [1] [1] [2] [0] [0]
  dot_S8x4096x128_S256x128_S8x4096x256_2_1_01_0_n_n_wf : DotDims.WF S8x4096x128 S256x128 S8x4096x256 [2] [1] [0, 1] [0] [] []

variable [Facts₀]

def dot_S8x4096x256_S128x256_S8x4096x128_2_1_01_0_n_n : DotDims S8x4096x256 S128x256 S8x4096x128 where
  lhsContracting := [2]
  rhsContracting := [1]
  lhsNonContracting := [0, 1]
  rhsNonContracting := [0]
  lhsBatch := []
  rhsBatch := []
  wf := dot_S8x4096x256_S128x256_S8x4096x128_2_1_01_0_n_n_wf
def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf
def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf
def dot_S8x4096x128_S256x128_S8x4096x256_2_1_01_0_n_n : DotDims S8x4096x128 S256x128 S8x4096x256 where
  lhsContracting := [2]
  rhsContracting := [1]
  lhsNonContracting := [0, 1]
  rhsNonContracting := [0]
  lhsBatch := []
  rhsBatch := []
  wf := dot_S8x4096x128_S256x128_S8x4096x256_2_1_01_0_n_n_wf

class Facts : Prop extends Facts₀ where

variable [Facts]
-- ==== Proof.KernelPieces.lean ====
/-
  What each case of the kernel body leaves in its output block and in the two tables it keeps between grid points,
  as the body's pure terms of the blocks it loads.

  At a first query tile the body stores the key table and the value table, computed from the whole resident image and
  the key and value weights, and then the output block, computed from the tile of the image it loads at the tile's
  offset, the query and output weights, and the two tables just stored (read back).  At any other query tile the
  tables are the ones the point before left, and only the output block is stored.
-/
import proofs.«103832_j36103495090206_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile of the resident image the body loads at grid point `i`: all 256 channels of the 1024 pixels that start
    at the tile's offset. -/
def tileOf (i : grid0.Coords) (x0 : Vec F S1x256x4096 .f32) : Vec F S1x256x1024 .f32 :=
  View.ld x0 (Rect.unit (k0_off1 i) S1x256x1024.size (k0_off1_inb i))

/-- The key table a first query tile leaves: the key mixing of the whole image. -/
theorem keys_piece (c : Dev nD) (i : grid0.Coords) (arg2 : Memref sig .tc .vmem S1x256x4096 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x256 .f32) (harg5 : arg5.IsWhole) (arg6 : Memref sig .tc .vmem S128x1 .f32) (harg6 : arg6.IsWhole) (arg7 : Memref sig .tc .vmem S128x256 .f32) (harg7 : arg7.IsWhole) (arg8 : Memref sig .tc .vmem S128x1 .f32) (harg8 : arg8.IsWhole) (arg9 : Memref sig .tc .vmem S256x128 .f32) (harg9 : arg9.IsWhole) (arg10 : Memref sig .tc .vmem S256x1 .f32) (harg10 : arg10.IsWhole) (arg11 : Memref sig .tc .vmem S1x256x1024 .f32) (harg11 : arg11.IsWhole) (arg12 : Memref sig .tc .vmem S128x4096 .bf16) (harg12 : arg12.IsWhole) (arg13 : Memref sig .tc .vmem S128x4096 .bf16) (harg13 : arg13.IsWhole) (hc0 : cond0_0 i) (x0 : Vec F S1x256x4096 .f32) (x1 : Vec F S128x256 .f32) (x2 : Vec F S128x1 .f32) (x3 : Vec F S128x256 .f32) (x4 : Vec F S128x1 .f32) (x5 : Vec F S128x256 .f32) (x6 : Vec F S128x1 .f32) (x7 : Vec F S256x128 .f32) (x8 : Vec F S256x1 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay3 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread,
    View.ld_unit_zero (S := S1x256x4096) hz3, View.ld_unit_zero (S := S128x256) hz2, View.ld_unit_zero (S := S128x1) hz2,
    View.ld_unit_zero (S := S256x128) hz2, View.ld_unit_zero (S := S256x1) hz2, View.ld_unit_zero (S := S128x4096) hz2]

/-- The value table a first query tile leaves: the value mixing of the whole image. -/
theorem values_piece (c : Dev nD) (i : grid0.Coords) (arg2 : Memref sig .tc .vmem S1x256x4096 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x256 .f32) (harg5 : arg5.IsWhole) (arg6 : Memref sig .tc .vmem S128x1 .f32) (harg6 : arg6.IsWhole) (arg7 : Memref sig .tc .vmem S128x256 .f32) (harg7 : arg7.IsWhole) (arg8 : Memref sig .tc .vmem S128x1 .f32) (harg8 : arg8.IsWhole) (arg9 : Memref sig .tc .vmem S256x128 .f32) (harg9 : arg9.IsWhole) (arg10 : Memref sig .tc .vmem S256x1 .f32) (harg10 : arg10.IsWhole) (arg11 : Memref sig .tc .vmem S1x256x1024 .f32) (harg11 : arg11.IsWhole) (arg12 : Memref sig .tc .vmem S128x4096 .bf16) (harg12 : arg12.IsWhole) (arg13 : Memref sig .tc .vmem S128x4096 .bf16) (harg13 : arg13.IsWhole) (hc0 : cond0_0 i) (x0 : Vec F S1x256x4096 .f32) (x1 : Vec F S128x256 .f32) (x2 : Vec F S128x1 .f32) (x3 : Vec F S128x256 .f32) (x4 : Vec F S128x1 .f32) (x5 : Vec F S128x256 .f32) (x6 : Vec F S128x1 .f32) (x7 : Vec F S256x128 .f32) (x8 : Vec F S256x1 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay4 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread,
    View.ld_unit_zero (S := S1x256x4096) hz3, View.ld_unit_zero (S := S128x256) hz2, View.ld_unit_zero (S := S128x1) hz2,
    View.ld_unit_zero (S := S256x128) hz2, View.ld_unit_zero (S := S256x1) hz2, View.ld_unit_zero (S := S128x4096) hz2]

/-- The output block of a first query tile: the tables are the ones it has just stored. -/
theorem out_piece_first (c : Dev nD) (i : grid0.Coords) (arg2 : Memref sig .tc .vmem S1x256x4096 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x256 .f32) (harg5 : arg5.IsWhole) (arg6 : Memref sig .tc .vmem S128x1 .f32) (harg6 : arg6.IsWhole) (arg7 : Memref sig .tc .vmem S128x256 .f32) (harg7 : arg7.IsWhole) (arg8 : Memref sig .tc .vmem S128x1 .f32) (harg8 : arg8.IsWhole) (arg9 : Memref sig .tc .vmem S256x128 .f32) (harg9 : arg9.IsWhole) (arg10 : Memref sig .tc .vmem S256x1 .f32) (harg10 : arg10.IsWhole) (arg11 : Memref sig .tc .vmem S1x256x1024 .f32) (harg11 : arg11.IsWhole) (arg12 : Memref sig .tc .vmem S128x4096 .bf16) (harg12 : arg12.IsWhole) (arg13 : Memref sig .tc .vmem S128x4096 .bf16) (harg13 : arg13.IsWhole) (hc0 : cond0_0 i) (x0 : Vec F S1x256x4096 .f32) (x1 : Vec F S128x256 .f32) (x2 : Vec F S128x1 .f32) (x3 : Vec F S128x256 .f32) (x4 : Vec F S128x1 .f32) (x5 : Vec F S128x256 .f32) (x6 : Vec F S128x1 .f32) (x7 : Vec F S256x128 .f32) (x8 : Vec F S256x1 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = k0_pay1 (k0_pay5 (tileOf i x0)) (k0_pay6 (tileOf i x0) x1 x2 (k0_pay3 x0 x3 x4) (k0_pay4 x0 x5 x6) x7) x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero (S := S1x256x1024) hz3, View.readCov_unit_zero (S := S128x4096) _ hz2,
    View.readCov_unit_zero (S := S128x4096) _ hz2]
  simp only [View.readAt_eq_ld, harg2.read_unread, harg3.read_unread, harg4.read_unread, harg5.read_unread, harg6.read_unread, harg7.read_unread, harg8.read_unread, harg9.read_unread, harg10.read_unread, harg12.read_unread, harg13.read_unread,
    View.ld_unit_zero (S := S1x256x4096) hz3, View.ld_unit_zero (S := S128x256) hz2, View.ld_unit_zero (S := S128x1) hz2,
    View.ld_unit_zero (S := S256x128) hz2, View.ld_unit_zero (S := S256x1) hz2, View.ld_unit_zero (S := S128x4096) hz2]
  rfl

/-- The output block of a later query tile: the tables are what the point before left. -/
theorem out_piece_later (c : Dev nD) (i : grid0.Coords) (arg2 : Memref sig .tc .vmem S1x256x4096 .f32) (harg2 : arg2.IsWhole) (arg3 : Memref sig .tc .vmem S128x256 .f32) (harg3 : arg3.IsWhole) (arg4 : Memref sig .tc .vmem S128x1 .f32) (harg4 : arg4.IsWhole) (arg5 : Memref sig .tc .vmem S128x256 .f32) (harg5 : arg5.IsWhole) (arg6 : Memref sig .tc .vmem S128x1 .f32) (harg6 : arg6.IsWhole) (arg7 : Memref sig .tc .vmem S128x256 .f32) (harg7 : arg7.IsWhole) (arg8 : Memref sig .tc .vmem S128x1 .f32) (harg8 : arg8.IsWhole) (arg9 : Memref sig .tc .vmem S256x128 .f32) (harg9 : arg9.IsWhole) (arg10 : Memref sig .tc .vmem S256x1 .f32) (harg10 : arg10.IsWhole) (arg11 : Memref sig .tc .vmem S1x256x1024 .f32) (harg11 : arg11.IsWhole) (arg12 : Memref sig .tc .vmem S128x4096 .bf16) (harg12 : arg12.IsWhole) (arg13 : Memref sig .tc .vmem S128x4096 .bf16) (harg13 : arg13.IsWhole) (hc0 : ¬cond0_0 i) (x0 : Vec F S1x256x4096 .f32) (x1 : Vec F S128x256 .f32) (x2 : Vec F S128x1 .f32) (x3 : Vec F S128x256 .f32) (x4 : Vec F S128x1 .f32) (x5 : Vec F S128x256 .f32) (x6 : Vec F S128x1 .f32) (x7 : Vec F S256x128 .f32) (x8 : Vec F S256x1 .f32)
    (xs0 xs1 : Vec F S128x4096 .bf16) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1
      = k0_pay1 (k0_pay5 (tileOf i x0)) (k0_pay6 (tileOf i x0) x1 x2 xs0 xs1 x7) x8 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1)]
  unfold kernelRun0_B
  dsimp only
  sl_unfold_words
  rw [View.canon_unit_zero (S := S1x256x1024) hz3]
  simp only [View.readAt_eq_ld, harg2.read_unread, harg3.read_unread, harg4.read_unread, harg5.read_unread, harg6.read_unread, harg7.read_unread, harg8.read_unread, harg9.read_unread, harg10.read_unread, harg12.read_unread, harg13.read_unread,
    View.ld_unit_zero (S := S1x256x4096) hz3, View.ld_unit_zero (S := S128x256) hz2, View.ld_unit_zero (S := S128x1) hz2,
    View.ld_unit_zero (S := S256x128) hz2, View.ld_unit_zero (S := S256x1) hz2, View.ld_unit_zero (S := S128x4096) hz2]
  rfl

end Cert.KernelIdeal.Pieces

end
-- ==== Proof.Attention.lean ====
/-
  Single-head attention over the pixels of one image, with a residual connection, written on the extended reals
  as functions of coordinates.

  An image is a table X of C channels by N pixels.  Three channel mixings give, for every pixel, a query, a key and a
  value vector of E entries: entry e at pixel n is (∑ c, w e c · X c n) + bias e.  The score of pixel n against pixel j is
  the inner product of n's query with j's key; a row of scores is normalised by the softmax in its shifted form
  exp (s j − sup s) / ∑ i, exp (s i − sup s); the normalised row weighs the value vectors; a last channel mixing takes the
  E weighted entries back to C channels, and the input pixel is added.
-/
import Idealize.ShloMosaic.PureOps.Ideal
import Mathlib.Order.CompleteLattice.Finset

noncomputable section

namespace Cert.Attn

open Idealize.ShloMosaic

/-- One entry of a channel mixing: row `e` of the weights against a column, plus the bias entry. -/
def mix {E C : ℕ} (w : Fin E → Fin C → EReal) (bias : Fin E → EReal) (col : Fin C → EReal) (e : Fin E) : EReal :=
  (∑ c : Fin C, w e c * col c) + bias e

/-- The scores of one query vector against every key: inner products over the embedding axis. -/
def scores {E N : ℕ} (q : Fin E → EReal) (k : Fin E → Fin N → EReal) (j : Fin N) : EReal :=
  ∑ e : Fin E, q e * k e j

/-- The softmax of a row in its shifted form: the row's supremum is subtracted before the exponential. -/
def softmax {N : ℕ} (s : Fin N → EReal) (j : Fin N) : EReal :=
  Ideal.div (Ideal.exp (s j - ⨆ i, s i)) (∑ i : Fin N, Ideal.exp (s i - ⨆ i', s i'))

/-- A row of weights applied to the value vectors: entry `e` of the weighted sum. -/
def weigh {E N : ℕ} (a : Fin N → EReal) (v : Fin E → Fin N → EReal) (e : Fin E) : EReal :=
  ∑ j : Fin N, a j * v e j

/-- The attended features of the pixel whose query vector is `q`, given every pixel's key and value. -/
def attend {E N : ℕ} (q : Fin E → EReal) (k v : Fin E → Fin N → EReal) (e : Fin E) : EReal :=
  weigh (softmax (scores q k)) v e

/-- Channel `c` of output pixel `n` of one image `X`: the attended features of pixel `n` mixed back to the
    channels, plus the pixel itself. -/
def pixel {C E N : ℕ} (wq : Fin E → Fin C → EReal) (bq : Fin E → EReal) (wk : Fin E → Fin C → EReal) (bk : Fin E → EReal)
    (wv : Fin E → Fin C → EReal) (bv : Fin E → EReal) (wo : Fin C → Fin E → EReal) (bo : Fin C → EReal)
    (X : Fin C → Fin N → EReal) (c : Fin C) (n : Fin N) : EReal :=
  mix wo bo (attend (mix wq bq fun c' => X c' n) (fun e j => mix wk bk (fun c' => X c' j) e)
    (fun e j => mix wv bv (fun c' => X c' j) e)) c + X c n

end Cert.Attn

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibTransDot.lean ====
/-
  A matrix product with the right operand given by rows, into a zero accumulator, read at coordinates.

  For a dot of a `[M, K]` matrix with a `[N, K]` matrix whose dimension numbers contract the second axis of both operands
  and keep the first axes in order (the product of the left matrix with the transpose of the right one), the product
  accumulated into the zero splat is, at `(p, c)`,

      ∑ k : Fin K, l (p, k) · r (c, k)

  on the extended reals. The dimension record enters only through four facts about its operand indices — the left index at
  output index `i` and contraction position `q` is `(i 0, q)`, the right one `(i 1, q)` — which a concrete record proves by
  unfolding; with them the sum over the record's one-axis contraction shape is re-indexed over `Fin K`.
-/
import Idealize.ShloMosaic.PureOps.Ideal.Laws
import Idealize.ShloMosaic.Lib.ValueIdx

namespace Cert.Lib.TransDot

open Idealize.ShloMosaic Idealize.ShloMosaic.ValueIdx

/-- The product of an `[M, K]` matrix with the transpose of an `[N, K]` matrix into the zero splat at `(p, c)`: the sum
    over `k` of `l (p, k) · r (c, k)`. -/
theorem matmul_zero_ix2_nt {M K N : ℕ} {φ₁ φ₂ : FTy}
    (D : DotDims ⟨2, ![M, K]⟩ ⟨2, ![N, K]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (i (1 : Fin 2)).val)
    (hr1 : ∀ (i : (⟨2, ![M, N]⟩ : Shape).Idx) (q : D.contr.Idx), (D.rhsIdx i q (1 : Fin 2)).val = (q ⟨0, by omega⟩).val)
    (prec : Option ContractPrecision) (l : FVec Ideal ⟨2, ![M, K]⟩ φ₁) (r : FVec Ideal ⟨2, ![N, K]⟩ φ₂) (p : Fin M) (c : Fin N) :
    FloatOps.matmul D prec l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.TransDot
-- ==== Proof.LibFirstAxesDot.lean ====
/-
  A matrix product contracting both operands' FIRST axes, into a zero accumulator, read at coordinates.

  For a dot of a `[K, M]` matrix with a `[K, N]` matrix whose dimension numbers contract the two first axes and keep the
  two second axes in order (the einsum 'km,kn->mn': the left operand used transposed without a transpose being
  materialized), the product accumulated into the zero splat is, at `(p, c)`,

      ∑ k : Fin K, l (k, p) · r (k, c)

  on the extended reals. The dimension record enters only through four facts about its operand indices — the left index at
  output index `i` and contraction position `q` is `(q, i 0)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.FirstAxesDot

open Idealize.ShloMosaic Idealize.ShloMosaic.ValueIdx

/-- The product of a `[K, M]` and a `[K, N]` matrix over their first axes into the zero splat at `(p, c)`: the sum over `k`
    of `l (k, p) · r (k, c)`. -/
theorem matmul_zero_first_axes {K M N : ℕ} {φ₁ φ₂ : FTy}
    (D : DotDims ⟨2, ![K, M]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (q ⟨0, by omega⟩).val)
    (hl1 : ∀ (i : (⟨2, ![M, N]⟩ : Shape).Idx) (q : D.contr.Idx), (D.lhsIdx i q (1 : Fin 2)).val = (i (0 : Fin 2)).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![K, M]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 k p) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 k p := funext fun a => Fin.ext (by
    match a with
    | ⟨0, _⟩ => exact (hl0 _ _).trans hk
    | ⟨1, _⟩ => exact hl1 _ _)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.FirstAxesDot
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.LibLift2.lean ====
/-
  The index a one-axis reduction of a matrix puts back: reducing an m × n matrix over its columns (axis 1) leaves a
  vector over the rows, and entry p of the result gathers the matrix entries (p, k); reducing over its rows (axis 0)
  leaves a vector over the columns, and entry t gathers the entries (k, t).
-/
import Idealize.ShloMosaic.PureOps.Reduce
import Idealize.ShloMosaic.Lib.ValueIdx

namespace Cert.Lift2

open Idealize.ShloMosaic Idealize.ShloMosaic.ValueIdx

/-- Row `p` of the reduced vector with column `k` put back is the matrix index (p, k). -/
theorem lift_axis1 {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- Column `t` of the reduced vector with row `k` put back is the matrix index (k, t). -/
theorem lift_axis0 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

end Cert.Lift2
-- ==== Proof.LibIdx3.lean ====
/-
  A rank-3 index set is the product of its three coordinate ranges, so a sum over the indices of a rank-3 array is the
  triple sum over its coordinates at `ix3`.  (The rank-2 form, `sum_idx2`, is in the library's Lib/ValueIdx.lean.)
  And two ways of taking a largest entry agree: a fold of `max` from the least extended real over a finite index type
  is the supremum of the family, a supremum over the rows' suprema is the supremum over all pairs, and a supremum over
  the row-major positions `r · m + c` of an n × m table is the supremum over the pairs `(r, c)`.
-/
import Idealize.ShloMosaic.Lib.ValueIdx
import Mathlib.Data.EReal.Basic
import Mathlib.Order.CompleteLattice.Finset
import Mathlib.Logic.Equiv.Fin.Basic

noncomputable section

namespace Cert.Idx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A fold of `max` from the least extended real over a whole finite index type is the family's supremum. -/
theorem fold_max_bot {ι : Type*} [Fintype ι] (f : ι → EReal) :
    (Finset.univ : Finset ι).fold max ⊥ f = ⨆ k, f k := by
  rw [← Finset.sup_univ_eq_iSup]
  rfl

/-- The row-major position of the pair `(r, c)` in an n × m table. -/
def pos {n m : Nat} (N : Nat) (h : N = n * m) (r : Fin n) (c : Fin m) : Fin N :=
  ⟨r.val * m + c.val, by
    have hr := r.isLt; have hc := c.isLt
    calc r.val * m + c.val < r.val * m + m := by omega
      _ = (r.val + 1) * m := by rw [Nat.add_mul, Nat.one_mul]
      _ ≤ n * m := Nat.mul_le_mul_right m hr
      _ = N := h.symm⟩

/-- The pairs `(r, c)` and the row-major positions of an n × m table correspond one to one. -/
def posEquiv {n m : Nat} (N : Nat) (h : N = n * m) (hm : 0 < m) : Fin n × Fin m ≃ Fin N where
  toFun p := pos N h p.1 p.2
  invFun k := (⟨k.val / m, by
      have hk : k.val < n * m := h ▸ k.isLt
      exact Nat.div_lt_of_lt_mul (by rwa [Nat.mul_comm] at hk)⟩, ⟨k.val % m, Nat.mod_lt _ hm⟩)
  left_inv p := by
    obtain ⟨r, c⟩ := p
    have hc := c.isLt
    refine Prod.ext (Fin.ext ?_) (Fin.ext ?_)
    · show (r.val * m + c.val) / m = r.val
      rw [Nat.mul_comm, Nat.mul_add_div hm, Nat.div_eq_of_lt hc, Nat.add_zero]
    · show (r.val * m + c.val) % m = c.val
      rw [Nat.mul_comm, Nat.mul_add_mod, Nat.mod_eq_of_lt hc]
  right_inv k := Fin.ext (by
    show k.val / m * m + k.val % m = k.val
    rw [Nat.mul_comm]; exact Nat.div_add_mod _ _)

/-- A supremum over the row-major positions of an n × m table is the supremum over rows of the rows' suprema. -/
theorem iSup_pos {α : Type*} [CompleteLattice α] {n m : Nat} (N : Nat) (h : N = n * m) (hm : 0 < m) (F : Fin N → α) :
    (⨆ k : Fin N, F k) = ⨆ (r : Fin n) (c : Fin m), F (pos N h r c) := by
  rw [← (posEquiv N h hm).iSup_comp (g := F), iSup_prod]
  rfl

end Cert.Idx3

end
-- ==== Proof.LibAxisReduce.lean ====
/-
  One-axis reductions of a matrix of extended reals, read at coordinates.  Over the columns (axis 1) of an m × n matrix,
  entry p of the sum is the sum over c of the entries (p, c), and entry p of the maximum taken from minus infinity is
  the supremum over c of the entries (p, c); over the rows (axis 0), entry t gathers the entries (r, t) in the same
  two ways.  The accumulator's hypothesis is stated of the literal word, as a printed program's own evidence is.
-/
import Idealize.ShloMosaic.PureOps.Ideal.Laws
import Idealize.ShloMosaic.Lib.ValueIdx
import proofs.«103832_j36103495090206_2_alg».proof.Proof.LibLift2
import proofs.«103832_j36103495090206_2_alg».proof.Proof.LibIdx3

noncomputable section

namespace Cert.AxisReduce

open Idealize.ShloMosaic Idealize.ShloMosaic.ValueIdx Cert.Lift2 Cert.Idx3

/-- The word of minus infinity denotes the least extended real. -/
theorem ofBits_neg_inf : Ideal.ofBits .f32 0xFF800000#32 = (⊥ : EReal) := by
  simp [Ideal.ofBits, Ideal.ieee]

/-- A fold of `max` from the word of minus infinity over a whole finite index type is the family's supremum. -/
theorem fold_max_neg_inf {ι : Type*} [Fintype ι] (f : ι → EReal) :
    (Finset.univ : Finset ι).fold max (FloatOps.ofBits (F := Ideal) .f32 0xFF800000#32) f = ⨆ k, f k := by
  rw [Ideal.ofBits_def, ofBits_neg_inf]
  exact fold_max_bot f

/-- Entry `p` of the sum over the columns is the sum of row `p`. -/
theorem rowSum_apply {m n : Nat} (v : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) v 0x00000000#32 h hφ hacc (ix1 p) = ∑ c : Fin n, v (ix2 p c) := by
  refine (Ideal.multiReduction_add_single v 0x00000000#32 h hφ hacc (ix1 p)).trans ?_
  show ∑ k : Fin n, v (h.lift (ix1 p) k) = _
  exact Finset.sum_congr rfl fun k _ => congrArg v (lift_axis1 h p k)

/-- Entry `t` of the sum over the rows is the sum of column `t`. -/
theorem colSum_apply {m n : Nat} (v : FVec Ideal ⟨2, ![m, n]⟩ .f32) (h : (⟨2, ![m, n]⟩ : Shape).Reduces [0] (⟨1, ![n]⟩ : Shape))
    (hφ : FKind.Formats .f32) (hacc : (0x00000000#32 : BitVec 32) = 0x00000000#32) (t : Fin n) :
    multiReduction .add [0] (⟨1, ![n]⟩ : Shape) v 0x00000000#32 h hφ hacc (ix1 t) = ∑ r : Fin m, v (ix2 r t) := by
  refine (Ideal.multiReduction_add_single v 0x00000000#32 h hφ hacc (ix1 t)).trans ?_
  show ∑ k : Fin m, v (h.lift (ix1 t) k) = _
  exact Finset.sum_congr rfl fun k _ => congrArg v (lift_axis0 h t k)

/-- Entry `p` of the maximum over the columns, taken from minus infinity, is the supremum of row `p`. -/
theorem rowMax_apply {m n : Nat} (v : FVec Ideal ⟨2, ![m, n]⟩ .f32) (h : (⟨2, ![m, n]⟩ : Shape).Reduces [1] (⟨1, ![m]⟩ : Shape))
    (hφ : FKind.Formats .f32) (hacc : (0xFF800000#32 : BitVec 32) = 0xFF800000#32) (p : Fin m) :
    multiReduction .maximumf [1] (⟨1, ![m]⟩ : Shape) v 0xFF800000#32 h hφ hacc (ix1 p) = ⨆ c : Fin n, v (ix2 p c) := by
  refine (Ideal.multiReduction_maximumf_single v 0xFF800000#32 h hφ hacc (ix1 p)).trans ?_
  refine (fold_max_neg_inf _).trans ?_
  exact iSup_congr fun k => congrArg v (lift_axis1 h p k)

/-- Entry `t` of the maximum over the rows, taken from minus infinity, is the supremum of column `t`. -/
theorem colMax_apply {m n : Nat} (v : FVec Ideal ⟨2, ![m, n]⟩ .f32) (h : (⟨2, ![m, n]⟩ : Shape).Reduces [0] (⟨1, ![n]⟩ : Shape))
    (hφ : FKind.Formats .f32) (hacc : (0xFF800000#32 : BitVec 32) = 0xFF800000#32) (t : Fin n) :
    multiReduction .maximumf [0] (⟨1, ![n]⟩ : Shape) v 0xFF800000#32 h hφ hacc (ix1 t) = ⨆ r : Fin m, v (ix2 r t) := by
  refine (Ideal.multiReduction_maximumf_single v 0xFF800000#32 h hφ hacc (ix1 t)).trans ?_
  refine (fold_max_neg_inf _).trans ?_
  exact iSup_congr fun k => congrArg v (lift_axis0 h t k)

end Cert.AxisReduce

end
-- ==== Proof.KernelMath.lean ====
/-
  The arithmetic of one grid point of the fused attention kernel, read at coordinates on the extended reals.

  At the first query tile of an image the kernel computes the keys and the values of all 4096 pixels, one [128, 4096]
  table each: entry (e, j) is (∑ c, w e c · x c j) + bias e.  At every query tile it computes the queries of the tile's 1024
  pixels the same way, their scores against every key (a product contracting the embedding axis of both tables), the
  shifted softmax of each score row, the weighted values (contracting the 4096 pixels) and the output mixing
  (contracting the embedding axis), then adds the output bias and the tile of the image itself.  Changes of float
  format are the identity on the extended reals, and a product into the zero accumulator is the plain sum.
-/
import proofs.«103832_j36103495090206_2_alg».proof.Proof.Gen.KernelIdeal.Skeleton
import proofs.«103832_j36103495090206_2_alg».proof.Proof.Attention
import proofs.«103832_j36103495090206_2_alg».proof.Proof.LibPlainDot
import proofs.«103832_j36103495090206_2_alg».proof.Proof.LibTransDot
import proofs.«103832_j36103495090206_2_alg».proof.Proof.LibFirstAxesDot
import proofs.«103832_j36103495090206_2_alg».proof.Proof.LibColumns
import proofs.«103832_j36103495090206_2_alg».proof.Proof.LibAxisReduce
import Idealize.ShloMosaic.Lib.ValueIdx
import Idealize.ShloMosaic.Lib.ValueLayout
import Idealize.ShloMosaic.Lib.Pipeline.Value

noncomputable section

namespace Cert.KernelIdeal.Tile

open Idealize.ShloMosaic Idealize.ShloMosaic.ValueIdx Cert.KernelIdeal Cert.KernelIdeal.Gen Cert.Attn

/-! ## The five contraction records, coordinate by coordinate -/

/-- The operand indices of the record `dot_S128x256_S256x4096_S128x4096_1_0_0_1_n_n`, coordinate by coordinate. -/
theorem dKV_lc (i : S128x4096.Idx) (q : dot_S128x256_S256x4096_S128x4096_1_0_0_1_n_n.contr.Idx) : (dot_S128x256_S256x4096_S128x4096_1_0_0_1_n_n.lhsIdx i q 1).val = (q ⟨0, by decide⟩).val :=
  dot_S128x256_S256x4096_S128x4096_1_0_0_1_n_n.lhsIdx_val_of_single rfl i q
theorem dKV_ln (i : S128x4096.Idx) (q : dot_S128x256_S256x4096_S128x4096_1_0_0_1_n_n.contr.Idx) : (dot_S128x256_S256x4096_S128x4096_1_0_0_1_n_n.lhsIdx i q 0).val = (i 0).val := by
  unfold DotDims.lhsIdx
  rw [dif_neg (show ¬(0 : Fin S128x256.rank) ∈ dot_S128x256_S256x4096_S128x4096_1_0_0_1_n_n.lhsBatch by decide), dif_pos (show (0 : Fin S128x256.rank) ∈ dot_S128x256_S256x4096_S128x4096_1_0_0_1_n_n.lhsNonContracting by decide)]
  rfl
theorem dKV_rc (i : S128x4096.Idx) (q : dot_S128x256_S256x4096_S128x4096_1_0_0_1_n_n.contr.Idx) : (dot_S128x256_S256x4096_S128x4096_1_0_0_1_n_n.rhsIdx i q 0).val = (q ⟨0, by decide⟩).val :=
  dot_S128x256_S256x4096_S128x4096_1_0_0_1_n_n.rhsIdx_val_of_single rfl i q
theorem dKV_rn (i : S128x4096.Idx) (q : dot_S128x256_S256x4096_S128x4096_1_0_0_1_n_n.contr.Idx) : (dot_S128x256_S256x4096_S128x4096_1_0_0_1_n_n.rhsIdx i q 1).val = (i 1).val := by
  unfold DotDims.rhsIdx
  rw [dif_neg (show ¬(1 : Fin S256x4096.rank) ∈ dot_S128x256_S256x4096_S128x4096_1_0_0_1_n_n.rhsBatch by decide), dif_pos (show (1 : Fin S256x4096.rank) ∈ dot_S128x256_S256x4096_S128x4096_1_0_0_1_n_n.rhsNonContracting by decide)]
  rfl

/-- The operand indices of the record `dot_S128x256_S256x1024_S128x1024_1_0_0_1_n_n`, coordinate by coordinate. -/
theorem dQ_lc (i : S128x1024.Idx) (q : dot_S128x256_S256x1024_S128x1024_1_0_0_1_n_n.contr.Idx) : (dot_S128x256_S256x1024_S128x1024_1_0_0_1_n_n.lhsIdx i q 1).val = (q ⟨0, by decide⟩).val :=
  dot_S128x256_S256x1024_S128x1024_1_0_0_1_n_n.lhsIdx_val_of_single rfl i q
theorem dQ_ln (i : S128x1024.Idx) (q : dot_S128x256_S256x1024_S128x1024_1_0_0_1_n_n.contr.Idx) : (dot_S128x256_S256x1024_S128x1024_1_0_0_1_n_n.lhsIdx i q 0).val = (i 0).val := by
  unfold DotDims.lhsIdx
  rw [dif_neg (show ¬(0 : Fin S128x256.rank) ∈ dot_S128x256_S256x1024_S128x1024_1_0_0_1_n_n.lhsBatch by decide), dif_pos (show (0 : Fin S128x256.rank) ∈ dot_S128x256_S256x1024_S128x1024_1_0_0_1_n_n.lhsNonContracting by decide)]
  rfl
theorem dQ_rc (i : S128x1024.Idx) (q : dot_S128x256_S256x1024_S128x1024_1_0_0_1_n_n.contr.Idx) : (dot_S128x256_S256x1024_S128x1024_1_0_0_1_n_n.rhsIdx i q 0).val = (q ⟨0, by decide⟩).val :=
  dot_S128x256_S256x1024_S128x1024_1_0_0_1_n_n.rhsIdx_val_of_single rfl i q
theorem dQ_rn (i : S128x1024.Idx) (q : dot_S128x256_S256x1024_S128x1024_1_0_0_1_n_n.contr.Idx) : (dot_S128x256_S256x1024_S128x1024_1_0_0_1_n_n.rhsIdx i q 1).val = (i 1).val := by
  unfold DotDims.rhsIdx
  rw [dif_neg (show ¬(1 : Fin S256x1024.rank) ∈ dot_S128x256_S256x1024_S128x1024_1_0_0_1_n_n.rhsBatch by decide), dif_pos (show (1 : Fin S256x1024.rank) ∈ dot_S128x256_S256x1024_S128x1024_1_0_0_1_n_n.rhsNonContracting by decide)]
  rfl

/-- The operand indices of the record `dot_S128x1024_S128x4096_S1024x4096_0_0_1_1_n_n`, coordinate by coordinate. -/
theorem dS_lc (i : S1024x4096.Idx) (q : dot_S128x1024_S128x4096_S1024x4096_0_0_1_1_n_n.contr.Idx) : (dot_S128x1024_S128x4096_S1024x4096_0_0_1_1_n_n.lhsIdx i q 0).val = (q ⟨0, by decide⟩).val :=
  dot_S128x1024_S128x4096_S1024x4096_0_0_1_1_n_n.lhsIdx_val_of_single rfl i q
theorem dS_ln (i : S1024x4096.Idx) (q : dot_S128x1024_S128x4096_S1024x4096_0_0_1_1_n_n.contr.Idx) : (dot_S128x1024_S128x4096_S1024x4096_0_0_1_1_n_n.lhsIdx i q 1).val = (i 0).val := by
  unfold DotDims.lhsIdx
  rw [dif_neg (show ¬(1 : Fin S128x1024.rank) ∈ dot_S128x1024_S128x4096_S1024x4096_0_0_1_1_n_n.lhsBatch by decide), dif_pos (show (1 : Fin S128x1024.rank) ∈ dot_S128x1024_S128x4096_S1024x4096_0_0_1_1_n_n.lhsNonContracting by decide)]
  rfl
theorem dS_rc (i : S1024x4096.Idx) (q : dot_S128x1024_S128x4096_S1024x4096_0_0_1_1_n_n.contr.Idx) : (dot_S128x1024_S128x4096_S1024x4096_0_0_1_1_n_n.rhsIdx i q 0).val = (q ⟨0, by decide⟩).val :=
  dot_S128x1024_S128x4096_S1024x4096_0_0_1_1_n_n.rhsIdx_val_of_single rfl i q
theorem dS_rn (i : S1024x4096.Idx) (q : dot_S128x1024_S128x4096_S1024x4096_0_0_1_1_n_n.contr.Idx) : (dot_S128x1024_S128x4096_S1024x4096_0_0_1_1_n_n.rhsIdx i q 1).val = (i 1).val := by
  unfold DotDims.rhsIdx
  rw [dif_neg (show ¬(1 : Fin S128x4096.rank) ∈ dot_S128x1024_S128x4096_S1024x4096_0_0_1_1_n_n.rhsBatch by decide), dif_pos (show (1 : Fin S128x4096.rank) ∈ dot_S128x1024_S128x4096_S1024x4096_0_0_1_1_n_n.rhsNonContracting by decide)]
  rfl

/-- The operand indices of the record `dot_S1024x4096_S128x4096_S1024x128_1_1_0_0_n_n`, coordinate by coordinate. -/
theorem dF_lc (i : S1024x128.Idx) (q : dot_S1024x4096_S128x4096_S1024x128_1_1_0_0_n_n.contr.Idx) : (dot_S1024x4096_S128x4096_S1024x128_1_1_0_0_n_n.lhsIdx i q 1).val = (q ⟨0, by decide⟩).val :=
  dot_S1024x4096_S128x4096_S1024x128_1_1_0_0_n_n.lhsIdx_val_of_single rfl i q
theorem dF_ln (i : S1024x128.Idx) (q : dot_S1024x4096_S128x4096_S1024x128_1_1_0_0_n_n.contr.Idx) : (dot_S1024x4096_S128x4096_S1024x128_1_1_0_0_n_n.lhsIdx i q 0).val = (i 0).val := by
  unfold DotDims.lhsIdx
  rw [dif_neg (show ¬(0 : Fin S1024x4096.rank) ∈ dot_S1024x4096_S128x4096_S1024x128_1_1_0_0_n_n.lhsBatch by decide), dif_pos (show (0 : Fin S1024x4096.rank) ∈ dot_S1024x4096_S128x4096_S1024x128_1_1_0_0_n_n.lhsNonContracting by decide)]
  rfl
theorem dF_rc (i : S1024x128.Idx) (q : dot_S1024x4096_S128x4096_S1024x128_1_1_0_0_n_n.contr.Idx) : (dot_S1024x4096_S128x4096_S1024x128_1_1_0_0_n_n.rhsIdx i q 1).val = (q ⟨0, by decide⟩).val :=
  dot_S1024x4096_S128x4096_S1024x128_1_1_0_0_n_n.rhsIdx_val_of_single rfl i q
theorem dF_rn (i : S1024x128.Idx) (q : dot_S1024x4096_S128x4096_S1024x128_1_1_0_0_n_n.contr.Idx) : (dot_S1024x4096_S128x4096_S1024x128_1_1_0_0_n_n.rhsIdx i q 0).val = (i 1).val := by
  unfold DotDims.rhsIdx
  rw [dif_neg (show ¬(0 : Fin S128x4096.rank) ∈ dot_S1024x4096_S128x4096_S1024x128_1_1_0_0_n_n.rhsBatch by decide), dif_pos (show (0 : Fin S128x4096.rank) ∈ dot_S1024x4096_S128x4096_S1024x128_1_1_0_0_n_n.rhsNonContracting by decide)]
  rfl

/-- The operand indices of the record `dot_S256x128_S1024x128_S256x1024_1_1_0_0_n_n`, coordinate by coordinate. -/
theorem dO_lc (i : S256x1024.Idx) (q : dot_S256x128_S1024x128_S256x1024_1_1_0_0_n_n.contr.Idx) : (dot_S256x128_S1024x128_S256x1024_1_1_0_0_n_n.lhsIdx i q 1).val = (q ⟨0, by decide⟩).val :=
  dot_S256x128_S1024x128_S256x1024_1_1_0_0_n_n.lhsIdx_val_of_single rfl i q
theorem dO_ln (i : S256x1024.Idx) (q : dot_S256x128_S1024x128_S256x1024_1_1_0_0_n_n.contr.Idx) : (dot_S256x128_S1024x128_S256x1024_1_1_0_0_n_n.lhsIdx i q 0).val = (i 0).val := by
  unfold DotDims.lhsIdx
  rw [dif_neg (show ¬(0 : Fin S256x128.rank) ∈ dot_S256x128_S1024x128_S256x1024_1_1_0_0_n_n.lhsBatch by decide), dif_pos (show (0 : Fin S256x128.rank) ∈ dot_S256x128_S1024x128_S256x1024_1_1_0_0_n_n.lhsNonContracting by decide)]
  rfl
theorem dO_rc (i : S256x1024.Idx) (q : dot_S256x128_S1024x128_S256x1024_1_1_0_0_n_n.contr.Idx) : (dot_S256x128_S1024x128_S256x1024_1_1_0_0_n_n.rhsIdx i q 1).val = (q ⟨0, by decide⟩).val :=
  dot_S256x128_S1024x128_S256x1024_1_1_0_0_n_n.rhsIdx_val_of_single rfl i q
theorem dO_rn (i : S256x1024.Idx) (q : dot_S256x128_S1024x128_S256x1024_1_1_0_0_n_n.contr.Idx) : (dot_S256x128_S1024x128_S256x1024_1_1_0_0_n_n.rhsIdx i q 0).val = (i 1).val := by
  unfold DotDims.rhsIdx
  rw [dif_neg (show ¬(0 : Fin S1024x128.rank) ∈ dot_S256x128_S1024x128_S256x1024_1_1_0_0_n_n.rhsBatch by decide), dif_pos (show (0 : Fin S1024x128.rank) ∈ dot_S256x128_S1024x128_S256x1024_1_1_0_0_n_n.rhsNonContracting by decide)]
  rfl

/-- The exponential of a vector, at an index. -/
theorem exp_apply {s : Shape} {φ : FTy} (v : FVec Ideal s φ) (i : s.Idx) :
    Idealize.ShloMosaic.exp v i = Ideal.exp (v i) := rfl

/-! ## The keys and the values of one image -/

/-- Entry (e, j) of the key table the first query tile stores: row `e` of the weights against pixel `j`'s channels,
    plus the bias column's entry `e`. -/
theorem keys_apply (x0 : Vec Ideal S1x256x4096 .f32) (w : Vec Ideal S128x256 .f32) (bcol : Vec Ideal S128x1 .f32)
    (e : Fin 128) (j : Fin 4096) :
    k0_pay3 x0 w bcol (ix2 e j)
      = mix (fun e c => w (ix2 e c)) (fun e => bcol (ix2 e (0 : Fin 1))) (fun c => x0 (ix3 (0 : Fin 1) c j)) e := by
  unfold k0_pay3 k0_pay2 mix
  dsimp only
  rw [shapeCast_self, shapeCast_self]
  simp only [truncf_apply, addf_apply]
  refine (congrArg₂ (· + ·)
    (Cert.Lib.PlainDot.matmul_zero_ix2 dot_S128x256_S256x4096_S128x4096_1_0_0_1_n_n rfl rfl dKV_ln dKV_lc dKV_rc dKV_rn
      none _ _ e j)
    (Cert.Lib.Columns.broadcastTo_a1_ab_apply _ _ e j)).trans ?_
  simp only [truncf_apply, shapeCast_1ab_ab_apply]

/-- The value table is the same mixing with the value weights. -/
theorem values_apply (x0 : Vec Ideal S1x256x4096 .f32) (w : Vec Ideal S128x256 .f32) (bcol : Vec Ideal S128x1 .f32)
    (e : Fin 128) (j : Fin 4096) :
    k0_pay4 x0 w bcol (ix2 e j)
      = mix (fun e c => w (ix2 e c)) (fun e => bcol (ix2 e (0 : Fin 1))) (fun c => x0 (ix3 (0 : Fin 1) c j)) e := by
  unfold k0_pay4 k0_pay2 mix
  dsimp only
  rw [shapeCast_self, shapeCast_self]
  simp only [truncf_apply, addf_apply]
  refine (congrArg₂ (· + ·)
    (Cert.Lib.PlainDot.matmul_zero_ix2 dot_S128x256_S256x4096_S128x4096_1_0_0_1_n_n rfl rfl dKV_ln dKV_lc dKV_rc dKV_rn
      none _ _ e j)
    (Cert.Lib.Columns.broadcastTo_a1_ab_apply _ _ e j)).trans ?_
  simp only [truncf_apply, shapeCast_1ab_ab_apply]

/-! ## One query tile, stage by stage -/

/-- The tile of the image as a matrix: channel `c`, tile pixel `q`. -/
theorem tile_apply (v6 : Vec Ideal S1x256x1024 .f32) (c : Fin 256) (q : Fin 1024) :
    k0_pay5 v6 (ix2 c q) = v6 (ix3 (0 : Fin 1) c q) := by
  unfold k0_pay5
  exact shapeCast_1ab_ab_apply v6 _ c q

/-- The queries of the tile's pixels, [128, 1024]. -/
def queries (v6 : Vec Ideal S1x256x1024 .f32) (wq : Vec Ideal S128x256 .f32) (bq : Vec Ideal S128x1 .f32) :
    FVec Ideal S128x1024 .bf16 :=
  truncf .bf16 (addf (matmul dot_S128x256_S256x1024_S128x1024_1_0_0_1_n_n none (truncf .bf16 wq bitsLt_bf16_f32)
    (truncf .bf16 (k0_pay5 v6) bitsLt_bf16_f32) (constant S128x1024 .f32 0x00000000#32))
    (broadcastTo S128x1024 (shapeCast S128x1 bq shapeCasts_S128x1_S128x1) broadcasts_S128x1_S128x1024)) bitsLt_bf16_f32

/-- The scores of the tile's pixels against all pixels, [1024, 4096]. -/
def scoreTile (qt : FVec Ideal S128x1024 .bf16) (kk : FVec Ideal S128x4096 .bf16) : FVec Ideal S1024x4096 .f32 :=
  matmul dot_S128x1024_S128x4096_S1024x4096_0_0_1_1_n_n none qt kk (constant S1024x4096 .f32 0x00000000#32)

/-- The exponentials of the scores less their row's maximum. -/
def expTile (s : FVec Ideal S1024x4096 .f32) : FVec Ideal S1024x4096 .f32 :=
  Idealize.ShloMosaic.exp (subf s (broadcastTo S1024x4096 (shapeCast S1024x1
    (multiReduction .maximumf [1] S1024 s 0xFF800000#32 reduces_S1024x4096_S1024 (.inl rfl) rfl)
    shapeCasts_S1024_S1024x1) broadcasts_S1024x1_S1024x4096))

/-- Each row divided by its sum. -/
def probTile (p : FVec Ideal S1024x4096 .f32) : FVec Ideal S1024x4096 .bf16 :=
  truncf .bf16 (divf p (broadcastTo S1024x4096 (shapeCast S1024x1
    (multiReduction .add [1] S1024 p 0x00000000#32 reduces_S1024x4096_S1024 (.inl rfl) rfl)
    shapeCasts_S1024_S1024x1) broadcasts_S1024x1_S1024x4096)) bitsLt_bf16_f32

/-- The weighted values, [1024, 128]. -/
def featTile (a : FVec Ideal S1024x4096 .bf16) (vv : FVec Ideal S128x4096 .bf16) : FVec Ideal S1024x128 .bf16 :=
  truncf .bf16 (matmul dot_S1024x4096_S128x4096_S1024x128_1_1_0_0_n_n none a vv (constant S1024x128 .f32 0x00000000#32))
    bitsLt_bf16_f32

/-- The output mixing, [256, 1024]. -/
def outTile (wo : Vec Ideal S256x128 .f32) (f : FVec Ideal S1024x128 .bf16) : FVec Ideal S256x1024 .f32 :=
  matmul dot_S256x128_S1024x128_S256x1024_1_1_0_0_n_n none (truncf .bf16 wo bitsLt_bf16_f32) f
    (constant S256x1024 .f32 0x00000000#32)

/-- The body's long pure term is the composition of the six stages. -/
theorem stages_eq (v6 : Vec Ideal S1x256x1024 .f32) (wq : Vec Ideal S128x256 .f32) (bq : Vec Ideal S128x1 .f32)
    (kk vv : FVec Ideal S128x4096 .bf16) (wo : Vec Ideal S256x128 .f32) :
    k0_pay6 v6 wq bq kk vv wo = outTile wo (featTile (probTile (expTile (scoreTile (queries v6 wq bq) kk))) vv) := rfl

theorem queries_apply (v6 : Vec Ideal S1x256x1024 .f32) (wq : Vec Ideal S128x256 .f32) (bq : Vec Ideal S128x1 .f32)
    (e : Fin 128) (q : Fin 1024) :
    queries v6 wq bq (ix2 e q)
      = mix (fun e c => wq (ix2 e c)) (fun e => bq (ix2 e (0 : Fin 1))) (fun c => v6 (ix3 (0 : Fin 1) c q)) e := by
  unfold queries mix
  rw [shapeCast_self]
  simp only [truncf_apply, addf_apply]
  refine (congrArg₂ (· + ·)
    (Cert.Lib.PlainDot.matmul_zero_ix2 dot_S128x256_S256x1024_S128x1024_1_0_0_1_n_n rfl rfl dQ_ln dQ_lc dQ_rc dQ_rn
      none _ _ e q)
    (Cert.Lib.Columns.broadcastTo_a1_ab_apply _ _ e q)).trans ?_
  simp only [truncf_apply, tile_apply]

theorem scoreTile_apply (qt : FVec Ideal S128x1024 .bf16) (kk : FVec Ideal S128x4096 .bf16) (q : Fin 1024) (j : Fin 4096) :
    scoreTile qt kk (ix2 q j) = scores (fun e => qt (ix2 e q)) (fun e j => kk (ix2 e j)) j := by
  unfold scoreTile scores
  exact Cert.Lib.FirstAxesDot.matmul_zero_first_axes dot_S128x1024_S128x4096_S1024x4096_0_0_1_1_n_n rfl rfl
    dS_lc dS_ln dS_rc dS_rn none qt kk q j

theorem expTile_apply (s : FVec Ideal S1024x4096 .f32) (q : Fin 1024) (j : Fin 4096) :
    expTile s (ix2 q j) = Ideal.exp (s (ix2 q j) - ⨆ j' : Fin 4096, s (ix2 q j')) := by
  unfold expTile
  rw [exp_apply, subf_apply, Cert.Lib.Columns.broadcastTo_a1_ab_apply, Cert.Lib.Columns.shapeCast_a_a1_apply,
    Cert.AxisReduce.rowMax_apply]

theorem probTile_apply (p : FVec Ideal S1024x4096 .f32) (q : Fin 1024) (j : Fin 4096) :
    probTile p (ix2 q j) = Ideal.div (p (ix2 q j)) (∑ j' : Fin 4096, p (ix2 q j')) := by
  unfold probTile
  rw [truncf_apply, divf_apply, Cert.Lib.Columns.broadcastTo_a1_ab_apply, Cert.Lib.Columns.shapeCast_a_a1_apply,
    Cert.AxisReduce.rowSum_apply]

theorem featTile_apply (a : FVec Ideal S1024x4096 .bf16) (vv : FVec Ideal S128x4096 .bf16) (q : Fin 1024) (e : Fin 128) :
    featTile a vv (ix2 q e) = weigh (fun j => a (ix2 q j)) (fun e j => vv (ix2 e j)) e := by
  unfold featTile weigh
  rw [truncf_apply]
  exact Cert.Lib.TransDot.matmul_zero_ix2_nt dot_S1024x4096_S128x4096_S1024x128_1_1_0_0_n_n rfl rfl
    dF_ln dF_lc dF_rn dF_rc none a vv q e

theorem outTile_apply (wo : Vec Ideal S256x128 .f32) (f : FVec Ideal S1024x128 .bf16) (c : Fin 256) (q : Fin 1024) :
    outTile wo f (ix2 c q) = ∑ e : Fin 128, wo (ix2 c e) * f (ix2 q e) := by
  unfold outTile
  refine (Cert.Lib.TransDot.matmul_zero_ix2_nt dot_S256x128_S1024x128_S256x1024_1_1_0_0_n_n rfl rfl dO_ln dO_lc dO_rn dO_rc
    none _ f c q).trans ?_
  simp only [truncf_apply]

/-- Entry (c, q) of the body's long pure term: the attended features of tile pixel `q` — its query against the key and
    value tables `kk`, `vv` — mixed by row `c` of the output weights (before the bias). -/
theorem attention_apply (v6 : Vec Ideal S1x256x1024 .f32) (wq : Vec Ideal S128x256 .f32) (bq : Vec Ideal S128x1 .f32)
    (kk vv : FVec Ideal S128x4096 .bf16) (wo : Vec Ideal S256x128 .f32) (c : Fin 256) (q : Fin 1024) :
    k0_pay6 v6 wq bq kk vv wo (ix2 c q)
      = ∑ e : Fin 128, wo (ix2 c e) * attend
          (mix (fun e c => wq (ix2 e c)) (fun e => bq (ix2 e (0 : Fin 1))) (fun c' => v6 (ix3 (0 : Fin 1) c' q)))
          (fun e j => kk (ix2 e j)) (fun e j => vv (ix2 e j)) e := by
  rw [stages_eq, outTile_apply]
  refine Finset.sum_congr rfl fun e _ => congrArg (_ * ·) ?_
  rw [featTile_apply]
  unfold attend
  refine congrArg (fun a => weigh a (fun e j => vv (ix2 e j)) e) (funext fun j => ?_)
  rw [probTile_apply]
  unfold softmax
  simp only [expTile_apply, scoreTile_apply, queries_apply]

/-- The stored block: the mixed features plus the output bias column plus the tile of the image. -/
theorem store_apply (v7 v34 : FVec Ideal S256x1024 .f32) (v35 : Vec Ideal S256x1 .f32) (u : Fin 1) (c : Fin 256)
    (q : Fin 1024) :
    k0_pay1 v7 v34 v35 (ix3 u c q) = v34 (ix2 c q) + v35 (ix2 c (0 : Fin 1)) + v7 (ix2 c q) := by
  unfold k0_pay1
  rw [shapeCast_ab_1ab_apply, shapeCast_self]
  simp only [addf_apply]
  rw [Cert.Lib.Columns.broadcastTo_a1_ab_apply]

end Cert.KernelIdeal.Tile

end
-- ==== Proof.Result.lean ====
/-
  The whole result as one function of the nine argument arrays.

  A batch of eight images is stored as [8, 256, 64, 64]: image b, channel c, row h, column w.  Pixel n of an image, in
  the order the attention runs over them, is the one at row n / 64 and column n % 64, so that the pixel at (h, w) is
  number 64·h + w.  Entry (b, c, h, w) of the result is channel c of the attended pixel 64·h + w of image b.
-/
import proofs.«103832_j36103495090206_2_alg».proof.Proof.Attention
import Idealize.ShloMosaic.Lib.ValueIdx

noncomputable section

namespace Cert.Attn

open Idealize.ShloMosaic Idealize.ShloMosaic.ValueIdx

/-- Image `b` of the batch as a table of channels by pixels. -/
def image (x : (⟨4, ![8, 256, 64, 64]⟩ : Shape).Idx → EReal) (b : Fin 8) (c : Fin 256) (n : Fin 4096) : EReal :=
  x (ix4 b c (⟨n.val / 64, by omega⟩ : Fin 64) (⟨n.val % 64, by omega⟩ : Fin 64))

/-- The number of the pixel at row `h`, column `w`. -/
def pix (h w : Fin 64) : Fin 4096 := ⟨64 * h.val + w.val, by omega⟩

/-- Pixel number `64·h + w` of an image is its entry at row `h`, column `w`. -/
theorem image_pix (x : (⟨4, ![8, 256, 64, 64]⟩ : Shape).Idx → EReal) (b : Fin 8) (c : Fin 256) (h w : Fin 64) :
    image x b c (pix h w) = x (ix4 b c h w) := by
  unfold image pix
  congr 1
  funext a
  apply Fin.ext
  fin_cases a
  · rfl
  · rfl
  · show (64 * h.val + w.val) / 64 = h.val
    omega
  · show (64 * h.val + w.val) % 64 = w.val
    omega

/-- The result array: attention over the pixels of each image, with the residual. -/
def result (x : (⟨4, ![8, 256, 64, 64]⟩ : Shape).Idx → EReal)
    (wq : (⟨2, ![128, 256]⟩ : Shape).Idx → EReal) (bq : (⟨1, ![128]⟩ : Shape).Idx → EReal)
    (wk : (⟨2, ![128, 256]⟩ : Shape).Idx → EReal) (bk : (⟨1, ![128]⟩ : Shape).Idx → EReal)
    (wv : (⟨2, ![128, 256]⟩ : Shape).Idx → EReal) (bv : (⟨1, ![128]⟩ : Shape).Idx → EReal)
    (wo : (⟨2, ![256, 128]⟩ : Shape).Idx → EReal) (bo : (⟨1, ![256]⟩ : Shape).Idx → EReal) :
    (⟨4, ![8, 256, 64, 64]⟩ : Shape).Idx → EReal := fun i =>
  pixel (fun e c => wq (ix2 e c)) (fun e => bq (ix1 e)) (fun e c => wk (ix2 e c)) (fun e => bk (ix1 e))
    (fun e c => wv (ix2 e c)) (fun e => bv (ix1 e)) (fun c e => wo (ix2 c e)) (fun c => bo (ix1 c))
    (image x (i 0)) (i 1) (pix (i 2) (i 3))

end Cert.Attn

end
-- ==== Proof.KernelBlocks.lean ====
/-
  What every grid point of the fused attention kernel leaves, as the attention of `Attention` over the argument arrays.

  The grid runs over the eight images and, within an image, over four tiles of 1024 query pixels: point t works on image
  t / 4 and tile t % 4.  The image window's block is the whole flattened image t / 4; the weight and bias windows are
  whole arrays; the output window's block is channels by the tile's 1024 pixels of image t / 4.  The key and value tables
  are computed at a tile-0 point from the whole image and kept for the image's other three tiles: after point n they are
  the tables of image n / 4.  Hence each point stores the attended pixels 1024·(t % 4) + q of image t / 4.
-/
import proofs.«103832_j36103495090206_2_alg».proof.Proof.Gen.KernelIdeal.Frame
import proofs.«103832_j36103495090206_2_alg».proof.Proof.KernelPieces
import proofs.«103832_j36103495090206_2_alg».proof.Proof.KernelMath
import proofs.«103832_j36103495090206_2_alg».proof.Proof.Result
import proofs.«103832_j36103495090206_2_alg».proof.Proof.LibColumns
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Pieces Cert.KernelIdeal.Tile Cert.Attn
open Idealize.ShloMosaic.Pipeline (Dat)

variable (m : (ℓ : Loc nD τ sig) → Buf (Elt Ideal) ℓ)

/-! ## The grid: image t / 4, tile t % 4 -/

theorem hN : cfg0.N = 32 := N_0

/-- The image a grid point works on. -/
def imgOf (t : Fin cfg0.N) : Fin 8 := ⟨t.val / 4, by have := t.isLt; have := hN; omega⟩

/-- Pixel `q` of the tile a grid point works on, as a pixel of the image. -/
def pixOf (t : Fin cfg0.N) (q : Fin 1024) : Fin 4096 := ⟨1024 * (t.val % 4) + q.val, by omega⟩

/-- The image window and the output window move with the image; the output window also with the tile. -/
theorem moving_idx : ∀ t : Fin cfg0.N,
    win0_0.index t (0 : Fin 3) = t.val / 4 ∧ win0_0.index t (1 : Fin 3) = 0 ∧ win0_0.index t (2 : Fin 3) = 0
    ∧ win0_9.index t (0 : Fin 3) = t.val / 4 ∧ win0_9.index t (1 : Fin 3) = 0 ∧ win0_9.index t (2 : Fin 3) = t.val % 4 :=
  (by decide +kernel : ∀ t : Fin grid0.N, _)

/-- The weight and bias windows never move. -/
theorem whole_idx : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The offsets of the tile the body loads from the resident image: the tile's first pixel on the last axis. -/
theorem tile_off : ∀ t : Fin cfg0.N,
    k0_off1 (grid0.coords t) (0 : Fin 3) = 0 ∧ k0_off1 (grid0.coords t) (1 : Fin 3) = 0
    ∧ k0_off1 (grid0.coords t) (2 : Fin 3) = 1024 * (t.val % 4) :=
  (by decide +kernel : ∀ t : Fin grid0.N, _)

/-! ## The arrays the region finds, and the windows' blocks -/

/-- The flattened input at (image, channel, pixel). -/
theorem flat_image_apply (c : Dev nD) (b : Fin 8) (c' : Fin 256) (j : Fin 4096) :
    (V m c main_v0 : S8x256x4096.Idx → EReal) (ix3 b c' j) = image (m ((c : Thread nD τ).loc main_arg0)) b c' j := by
  have h : (V m c main_v0 : S8x256x4096.Idx → EReal)
      = shapeCast S8x256x4096 (m ((c : Thread nD τ).loc main_arg0)) shapeCasts_S8x256x64x64_S8x256x4096 := by
    show StableHlo.after hostOps0 (fun b => m (c, b)) (Proc.devRef .tc main_v0) = _
    after_results
    rfl
  rw [h]
  unfold image
  refine shapeCast_apply (s := S8x256x64x64) (t := S8x256x4096) _ shapeCasts_S8x256x64x64_S8x256x4096 (ix3 b c' j)
    (ix4 b c' (⟨j.val / 64, by omega⟩ : Fin 64) (⟨j.val % 64, by omega⟩ : Fin 64)) ?_
  rw [Shape.rowMajor_val_four, Shape.rowMajor_val_three]
  show ((b.val * 256 + c'.val) * 64 + j.val / 64) * 64 + j.val % 64 = (b.val * 256 + c'.val) * 4096 + j.val
  omega

theorem column_2 (c : Dev nD) (e : Fin 128) (z : Fin 1) :
    (V m c main_v1 : S128x1.Idx → EReal) (ix2 e z) = (m ((c : Thread nD τ).loc main_arg2)) (ix1 e) := by
  have h : (V m c main_v1 : S128x1.Idx → EReal) = shapeCast S128x1 (m ((c : Thread nD τ).loc main_arg2)) shapeCasts_S128_S128x1 := by
    show StableHlo.after hostOps0 (fun b => m (c, b)) (Proc.devRef .tc main_v1) = _
    after_results
    rfl
  rw [h]
  exact Cert.Lib.Columns.shapeCast_a_a1_apply _ _ e z

theorem column_4 (c : Dev nD) (e : Fin 128) (z : Fin 1) :
    (V m c main_v2 : S128x1.Idx → EReal) (ix2 e z) = (m ((c : Thread nD τ).loc main_arg4)) (ix1 e) := by
  have h : (V m c main_v2 : S128x1.Idx → EReal) = shapeCast S128x1 (m ((c : Thread nD τ).loc main_arg4)) shapeCasts_S128_S128x1 := by
    show StableHlo.after hostOps0 (fun b => m (c, b)) (Proc.devRef .tc main_v2) = _
    after_results
    rfl
  rw [h]
  exact Cert.Lib.Columns.shapeCast_a_a1_apply _ _ e z

theorem column_6 (c : Dev nD) (e : Fin 128) (z : Fin 1) :
    (V m c main_v3 : S128x1.Idx → EReal) (ix2 e z) = (m ((c : Thread nD τ).loc main_arg6)) (ix1 e) := by
  have h : (V m c main_v3 : S128x1.Idx → EReal) = shapeCast S128x1 (m ((c : Thread nD τ).loc main_arg6)) shapeCasts_S128_S128x1 := by
    show StableHlo.after hostOps0 (fun b => m (c, b)) (Proc.devRef .tc main_v3) = _
    after_results
    rfl
  rw [h]
  exact Cert.Lib.Columns.shapeCast_a_a1_apply _ _ e z

theorem column_8 (c : Dev nD) (e : Fin 256) (z : Fin 1) :
    (V m c main_v4 : S256x1.Idx → EReal) (ix2 e z) = (m ((c : Thread nD τ).loc main_arg8)) (ix1 e) := by
  have h : (V m c main_v4 : S256x1.Idx → EReal) = shapeCast S256x1 (m ((c : Thread nD τ).loc main_arg8)) shapeCasts_S256_S256x1 := by
    show StableHlo.after hostOps0 (fun b => m (c, b)) (Proc.devRef .tc main_v4) = _
    after_results
    rfl
  rw [h]
  exact Cert.Lib.Columns.shapeCast_a_a1_apply _ _ e z

/-- The image window's block at point `t` is the flattened image `t / 4`. -/
theorem image_block (c : Dev nD) (t : Fin cfg0.N) (u : Fin 1) (c' : Fin 256) (j : Fin 4096) :
    (iblk m c 0 t : Vec Ideal S1x256x4096 .f32) (ix3 u c' j) = image (m ((c : Thread nD τ).loc main_arg0)) (imgOf t) c' j := by
  refine Eq.trans ?_ (flat_image_apply m c (imgOf t) c' j)
  show V m c main_v0 (((cfg0.win 0).blk t).view.emb (ix3 u c' j)) = V m c main_v0 (ix3 (imgOf t) c' j)
  refine congrArg (V m c main_v0) (funext fun a => Fin.ext ?_)
  obtain ⟨e0, e1, e2, -⟩ := moving_idx t
  have hu : u.val = 0 := by omega
  match a with
  | ⟨0, _⟩ => show win0_0.index t (0 : Fin 3) * 1 + 1 * u.val = t.val / 4; omega
  | ⟨1, _⟩ => show win0_0.index t (1 : Fin 3) * 256 + 1 * c'.val = c'.val; omega
  | ⟨2, _⟩ => show win0_0.index t (2 : Fin 3) * 4096 + 1 * j.val = j.val; omega

theorem whole_block_1 (c : Dev nD) (t : Fin cfg0.N) : (iblk m c 1 t : Vec Ideal S128x256 .f32) = V m c main_arg1 := by
  funext y
  show V m c main_arg1 (((cfg0.win 1).blk t).view.emb y) = V m c main_arg1 y
  refine congrArg (V m c main_arg1) (funext fun a => Fin.ext ?_)
  obtain ⟨e0, e1, -⟩ := whole_idx t
  match a with
  | ⟨0, _⟩ => show win0_1.index t (0 : Fin 2) * 128 + 1 * (y 0).val = (y 0).val; omega
  | ⟨1, _⟩ => show win0_1.index t (1 : Fin 2) * 256 + 1 * (y 1).val = (y 1).val; omega

theorem whole_block_2 (c : Dev nD) (t : Fin cfg0.N) : (iblk m c 2 t : Vec Ideal S128x1 .f32) = V m c main_v1 := by
  funext y
  show V m c main_v1 (((cfg0.win 2).blk t).view.emb y) = V m c main_v1 y
  refine congrArg (V m c main_v1) (funext fun a => Fin.ext ?_)
  obtain ⟨-, -, e0, e1, -⟩ := whole_idx t
  match a with
  | ⟨0, _⟩ => show win0_2.index t (0 : Fin 2) * 128 + 1 * (y 0).val = (y 0).val; omega
  | ⟨1, _⟩ => show win0_2.index t (1 : Fin 2) * 1 + 1 * (y 1).val = (y 1).val; omega

theorem whole_block_3 (c : Dev nD) (t : Fin cfg0.N) : (iblk m c 3 t : Vec Ideal S128x256 .f32) = V m c main_arg3 := by
  funext y
  show V m c main_arg3 (((cfg0.win 3).blk t).view.emb y) = V m c main_arg3 y
  refine congrArg (V m c main_arg3) (funext fun a => Fin.ext ?_)
  obtain ⟨-, -, -, -, e0, e1, -⟩ := whole_idx t
  match a with
  | ⟨0, _⟩ => show win0_3.index t (0 : Fin 2) * 128 + 1 * (y 0).val = (y 0).val; omega
  | ⟨1, _⟩ => show win0_3.index t (1 : Fin 2) * 256 + 1 * (y 1).val = (y 1).val; omega

theorem whole_block_4 (c : Dev nD) (t : Fin cfg0.N) : (iblk m c 4 t : Vec Ideal S128x1 .f32) = V m c main_v2 := by
  funext y
  show V m c main_v2 (((cfg0.win 4).blk t).view.emb y) = V m c main_v2 y
  refine congrArg (V m c main_v2) (funext fun a => Fin.ext ?_)
  obtain ⟨-, -, -, -, -, -, e0, e1, -⟩ := whole_idx t
  match a with
  | ⟨0, _⟩ => show win0_4.index t (0 : Fin 2) * 128 + 1 * (y 0).val = (y 0).val; omega
  | ⟨1, _⟩ => show win0_4.index t (1 : Fin 2) * 1 + 1 * (y 1).val = (y 1).val; omega

theorem whole_block_5 (c : Dev nD) (t : Fin cfg0.N) : (iblk m c 5 t : Vec Ideal S128x256 .f32) = V m c main_arg5 := by
  funext y
  show V m c main_arg5 (((cfg0.win 5).blk t).view.emb y) = V m c main_arg5 y
  refine congrArg (V m c main_arg5) (funext fun a => Fin.ext ?_)
  obtain ⟨-, -, -, -, -, -, -, -, e0, e1, -⟩ := whole_idx t
  match a with
  | ⟨0, _⟩ => show win0_5.index t (0 : Fin 2) * 128 + 1 * (y 0).val = (y 0).val; omega
  | ⟨1, _⟩ => show win0_5.index t (1 : Fin 2) * 256 + 1 * (y 1).val = (y 1).val; omega

theorem whole_block_6 (c : Dev nD) (t : Fin cfg0.N) : (iblk m c 6 t : Vec Ideal S128x1 .f32) = V m c main_v3 := by
  funext y
  show V m c main_v3 (((cfg0.win 6).blk t).view.emb y) = V m c main_v3 y
  refine congrArg (V m c main_v3) (funext fun a => Fin.ext ?_)
  obtain ⟨-, -, -, -, -, -, -, -, -, -, e0, e1, -⟩ := whole_idx t
  match a with
  | ⟨0, _⟩ => show win0_6.index t (0 : Fin 2) * 128 + 1 * (y 0).val = (y 0).val; omega
  | ⟨1, _⟩ => show win0_6.index t (1 : Fin 2) * 1 + 1 * (y 1).val = (y 1).val; omega

theorem whole_block_7 (c : Dev nD) (t : Fin cfg0.N) : (iblk m c 7 t : Vec Ideal S256x128 .f32) = V m c main_arg7 := by
  funext y
  show V m c main_arg7 (((cfg0.win 7).blk t).view.emb y) = V m c main_arg7 y
  refine congrArg (V m c main_arg7) (funext fun a => Fin.ext ?_)
  obtain ⟨-, -, -, -, -, -, -, -, -, -, -, -, e0, e1, -⟩ := whole_idx t
  match a with
  | ⟨0, _⟩ => show win0_7.index t (0 : Fin 2) * 256 + 1 * (y 0).val = (y 0).val; omega
  | ⟨1, _⟩ => show win0_7.index t (1 : Fin 2) * 128 + 1 * (y 1).val = (y 1).val; omega

theorem whole_block_8 (c : Dev nD) (t : Fin cfg0.N) : (iblk m c 8 t : Vec Ideal S256x1 .f32) = V m c main_v4 := by
  funext y
  show V m c main_v4 (((cfg0.win 8).blk t).view.emb y) = V m c main_v4 y
  refine congrArg (V m c main_v4) (funext fun a => Fin.ext ?_)
  obtain ⟨-, -, -, -, -, -, -, -, -, -, -, -, -, -, e0, e1⟩ := whole_idx t
  match a with
  | ⟨0, _⟩ => show win0_8.index t (0 : Fin 2) * 256 + 1 * (y 0).val = (y 0).val; omega
  | ⟨1, _⟩ => show win0_8.index t (1 : Fin 2) * 1 + 1 * (y 1).val = (y 1).val; omega

/-! ## One grid point's arithmetic over the argument arrays -/

/-- The loaded tile at (channel, tile pixel) is the resident image at the tile's offset plus the tile pixel. -/
theorem tile_read (i : grid0.Coords) (o : ℕ) (h0 : k0_off1 i (0 : Fin 3) = 0) (h1 : k0_off1 i (1 : Fin 3) = 0)
    (h2 : k0_off1 i (2 : Fin 3) = o) (ho : o + 1024 ≤ 4096) (x0 : Vec Ideal S1x256x4096 .f32) (u : Fin 1) (c' : Fin 256)
    (q : Fin 1024) :
    tileOf i x0 (ix3 u c' q) = x0 (ix3 (0 : Fin 1) c' (⟨o + q.val, by omega⟩ : Fin 4096)) := by
  unfold tileOf
  show x0 ((Rect.unit (s := S1x256x4096) (k0_off1 i) S1x256x1024.size (k0_off1_inb i)).idx (ix3 u c' q)) = _
  refine congrArg x0 (funext fun a => Fin.ext ?_)
  have hu : u.val = 0 := by omega
  match a with
  | ⟨0, _⟩ => show k0_off1 i (0 : Fin 3) + 1 * u.val = 0; omega
  | ⟨1, _⟩ => show k0_off1 i (1 : Fin 3) + 1 * c'.val = c'.val; omega
  | ⟨2, _⟩ => show k0_off1 i (2 : Fin 3) + 1 * q.val = o + q.val; omega

/-- The key table of image `b`. -/
def keyTab (c : Dev nD) (b : Fin 8) : Fin 128 → Fin 4096 → EReal :=
  fun e j => mix (fun e c' => (m ((c : Thread nD τ).loc main_arg3)) (ix2 e c')) (fun e => (m ((c : Thread nD τ).loc main_arg4)) (ix1 e)) (fun c' => image (m ((c : Thread nD τ).loc main_arg0)) b c' j) e

/-- The value table of image `b`. -/
def valTab (c : Dev nD) (b : Fin 8) : Fin 128 → Fin 4096 → EReal :=
  fun e j => mix (fun e c' => (m ((c : Thread nD τ).loc main_arg5)) (ix2 e c')) (fun e => (m ((c : Thread nD τ).loc main_arg6)) (ix1 e)) (fun c' => image (m ((c : Thread nD τ).loc main_arg0)) b c' j) e

/-- The attended pixel `n` of image `b`, channel `cc`. -/
def attended (c : Dev nD) (b : Fin 8) (cc : Fin 256) (n : Fin 4096) : EReal :=
  pixel (fun e c' => (m ((c : Thread nD τ).loc main_arg1)) (ix2 e c')) (fun e => (m ((c : Thread nD τ).loc main_arg2)) (ix1 e)) (fun e c' => (m ((c : Thread nD τ).loc main_arg3)) (ix2 e c')) (fun e => (m ((c : Thread nD τ).loc main_arg4)) (ix1 e))
    (fun e c' => (m ((c : Thread nD τ).loc main_arg5)) (ix2 e c')) (fun e => (m ((c : Thread nD τ).loc main_arg6)) (ix1 e)) (fun c' e => (m ((c : Thread nD τ).loc main_arg7)) (ix2 c' e)) (fun c' => (m ((c : Thread nD τ).loc main_arg8)) (ix1 c'))
    (image (m ((c : Thread nD τ).loc main_arg0)) b) cc n

/-- The tables a tile-0 point computes from its blocks are the tables of its image. -/
theorem first_tables (c : Dev nD) (t : Fin cfg0.N) :
    (∀ e j, k0_pay3 (iblk m c 0 t) (iblk m c 3 t) (iblk m c 4 t) (ix2 e j) = keyTab m c (imgOf t) e j)
    ∧ (∀ e j, k0_pay4 (iblk m c 0 t) (iblk m c 5 t) (iblk m c 6 t) (ix2 e j) = valTab m c (imgOf t) e j) := by
  constructor
  · intro e j
    refine (keys_apply (iblk m c 0 t) (iblk m c 3 t) (iblk m c 4 t) e j).trans ?_
    unfold keyTab
    simp only [image_block m c t, whole_block_3 m c t, whole_block_4 m c t, column_4 m c, V_main_arg3 m c]
  · intro e j
    refine (values_apply (iblk m c 0 t) (iblk m c 5 t) (iblk m c 6 t) e j).trans ?_
    unfold valTab
    simp only [image_block m c t, whole_block_5 m c t, whole_block_6 m c t, column_6 m c, V_main_arg5 m c]

/-- What a point stores, given tables that are its image's: the attended pixels of its tile. -/
theorem point_value (c : Dev nD) (t : Fin cfg0.N) (kk vv : FVec Ideal S128x4096 .bf16)
    (hK : ∀ e j, kk (ix2 e j) = keyTab m c (imgOf t) e j) (hV : ∀ e j, vv (ix2 e j) = valTab m c (imgOf t) e j)
    (u : Fin 1) (cc : Fin 256) (q : Fin 1024) :
    k0_pay1 (k0_pay5 (tileOf (grid0.coords t) (iblk m c 0 t)))
        (k0_pay6 (tileOf (grid0.coords t) (iblk m c 0 t)) (iblk m c 1 t) (iblk m c 2 t) kk vv (iblk m c 7 t)) (iblk m c 8 t)
        (ix3 u cc q)
      = attended m c (imgOf t) cc (pixOf t q) := by
  obtain ⟨o0, o1, o2⟩ := tile_off t
  have ho : 1024 * (t.val % 4) + 1024 ≤ 4096 := by omega
  rw [store_apply, attention_apply, tile_apply]
  simp only [tile_read (grid0.coords t) (1024 * (t.val % 4)) o0 o1 o2 ho (iblk m c 0 t), hK, hV]
  unfold attended pixel mix keyTab valTab
  simp only [image_block m c t, whole_block_1 m c t, whole_block_2 m c t, whole_block_7 m c t, whole_block_8 m c t,
    column_2 m c, column_8 m c, V_main_arg1 m c, V_main_arg7 m c]
  rfl

end Cert.KernelIdeal.Blocks

end
-- ==== Proof.KernelPoints.lean ====
/-
  Every grid point of the fused attention kernel, read as the attention of `Attention`: what each of the two cases of
  the body leaves, the tables kept from a tile-0 point through the image's other three tiles, and every point's block.
-/
import proofs.«103832_j36103495090206_2_alg».proof.Proof.KernelBlocks

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Pieces Cert.KernelIdeal.Tile Cert.Attn
open Idealize.ShloMosaic.Pipeline (Dat)

variable (m : (ℓ : Loc nD τ sig) → Buf (Elt Ideal) ℓ)

/-! ## The tables kept between points, and every point's block -/

set_option maxHeartbeats 400000 in
/-- A tile-0 point leaves its output block and the two tables as the body's pure terms of its blocks. -/
theorem first_point (c : Dev nD) (t : Fin cfg0.N) (h0 : t.val % 4 = 0) :
    outsAt0 m c t.val t.isLt
      = (k0_pay1 (k0_pay5 (tileOf (grid0.coords t) (iblk m c 0 t)))
          (k0_pay6 (tileOf (grid0.coords t) (iblk m c 0 t)) (iblk m c 1 t) (iblk m c 2 t)
            (k0_pay3 (iblk m c 0 t) (iblk m c 3 t) (iblk m c 4 t)) (k0_pay4 (iblk m c 0 t) (iblk m c 5 t) (iblk m c 6 t))
            (iblk m c 7 t)) (iblk m c 8 t),
        k0_pay3 (iblk m c 0 t) (iblk m c 3 t) (iblk m c 4 t), k0_pay4 (iblk m c 0 t) (iblk m c 5 t) (iblk m c 6 t)) := by
  rw [outsAt0_A m c t h0]
  refine congrArg₂ Prod.mk ?_ (congrArg₂ Prod.mk ?_ ?_)
  · exact out_piece_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  · exact keys_piece (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)
  · exact values_piece (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)

set_option maxHeartbeats 400000 in
/-- Any other point leaves its output block as the body's pure term of its blocks and the kept tables, which it
    leaves as they were. -/
theorem later_point (c : Dev nD) (t : Fin cfg0.N) (h0 : ¬t.val % 4 = 0) :
    outsAt0 m c t.val t.isLt
      = (k0_pay1 (k0_pay5 (tileOf (grid0.coords t) (iblk m c 0 t)))
          (k0_pay6 (tileOf (grid0.coords t) (iblk m c 0 t)) (iblk m c 1 t) (iblk m c 2 t)
            (outsAt0 m c (t.val - 1) (Nat.lt_of_le_of_lt (Nat.sub_le _ _) t.isLt)).2.1
            (outsAt0 m c (t.val - 1) (Nat.lt_of_le_of_lt (Nat.sub_le _ _) t.isLt)).2.2
            (iblk m c 7 t)) (iblk m c 8 t),
        (outsAt0 m c (t.val - 1) (Nat.lt_of_le_of_lt (Nat.sub_le _ _) t.isLt)).2.1,
        (outsAt0 m c (t.val - 1) (Nat.lt_of_le_of_lt (Nat.sub_le _ _) t.isLt)).2.2) := by
  rw [outsAt0_B m c t h0]
  refine congrArg₂ Prod.mk ?_ rfl
  exact out_piece_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

/-- After point `n` the two kept tables are the key and value tables of image `n / 4`. -/
theorem tables_eq (c : Dev nD) : ∀ (n : ℕ) (h : n < cfg0.N),
    (∀ e j, (outsAt0 m c n h).2.1 (ix2 e j) = keyTab m c (imgOf ⟨n, h⟩) e j)
    ∧ (∀ e j, (outsAt0 m c n h).2.2 (ix2 e j) = valTab m c (imgOf ⟨n, h⟩) e j)
  | n, h => by
    by_cases h0 : n % 4 = 0
    · have hA := first_point m c ⟨n, h⟩ h0
      obtain ⟨fK, fV⟩ := first_tables m c ⟨n, h⟩
      exact ⟨fun e j => (congrFun (congrArg (fun p => p.2.1) hA) (ix2 e j)).trans (fK e j),
        fun e j => (congrFun (congrArg (fun p => p.2.2) hA) (ix2 e j)).trans (fV e j)⟩
    · have hB := later_point m c ⟨n, h⟩ h0
      have hn : n - 1 < cfg0.N := by omega
      obtain ⟨pK, pV⟩ := tables_eq c (n - 1) hn
      have hb : imgOf (⟨n - 1, hn⟩ : Fin cfg0.N) = imgOf ⟨n, h⟩ := Fin.ext (by show (n - 1) / 4 = n / 4; omega)
      rw [hb] at pK pV
      exact ⟨fun e j => (congrFun (congrArg (fun p => p.2.1) hB) (ix2 e j)).trans (pK e j),
        fun e j => (congrFun (congrArg (fun p => p.2.2) hB) (ix2 e j)).trans (pV e j)⟩
  termination_by n => n
  decreasing_by omega

/-- Every point's output block holds the attended pixels of its tile. -/
theorem block_value (c : Dev nD) (t : Fin cfg0.N) (u : Fin 1) (cc : Fin 256) (q : Fin 1024) :
    (outsAt0 m c t.val t.isLt).1 (ix3 u cc q) = attended m c (imgOf t) cc (pixOf t q) := by
  by_cases h0 : t.val % 4 = 0
  · obtain ⟨fK, fV⟩ := first_tables m c t
    refine (congrFun (congrArg (fun p => p.1) (first_point m c t h0)) (ix3 u cc q)).trans ?_
    exact point_value m c t _ _ fK fV u cc q
  · have hn : t.val - 1 < cfg0.N := by have := t.isLt; omega
    obtain ⟨pK, pV⟩ := tables_eq m c (t.val - 1) hn
    have hb : imgOf (⟨t.val - 1, hn⟩ : Fin cfg0.N) = imgOf t := Fin.ext (by show (t.val - 1) / 4 = t.val / 4; omega)
    rw [hb] at pK pV
    refine (congrFun (congrArg (fun p => p.1) (later_point m c t h0)) (ix3 u cc q)).trans ?_
    exact point_value m c t _ _ pK pV u cc q

end Cert.KernelIdeal.Blocks

end
-- ==== Proof.KernelFinal.lean ====
/-
  The kernel's result array as one function of the argument arrays.

  Every grid point writes its output block back; block t is channels by the 1024 pixels of tile t % 4 of image t / 4, so
  the 32 blocks tile the flattened [8, 256, 4096] array, and the array ends holding the attended pixel at every
  (image, channel, pixel).  The program's last line unflattens the pixel axis into rows and columns.
-/
import proofs.«103832_j36103495090206_2_alg».proof.Proof.KernelPoints
import Idealize.ShloMosaic.Lib.Pipeline.Value
import Idealize.ShloMosaic.Lib.StableHlo.Run

set_option maxRecDepth 16384

noncomputable section

namespace Cert.KernelIdeal.Final

open Idealize.ShloMosaic Idealize.ShloMosaic.TcCoe Idealize.ShloMosaic.ValueIdx Idealize.SL.Sem
open Cert.KernelIdeal Cert.KernelIdeal.Gen Cert.KernelIdeal.Blocks Cert.Attn
open Idealize.ShloMosaic.Pipeline (Dat)

variable (m : (ℓ : Loc nD τ sig) → Buf (Elt Ideal) ℓ) (ρ : Dev nD → PrngReg)

/-- The flattened result: the attended pixel at (image, channel, pixel). -/
def flat (c : Dev nD) : S8x256x4096.Idx → EReal := fun i => attended m c (i 0) (i 1) (i 2)

/-- A point's output block at any index of the block. -/
theorem block_at (c : Dev nD) (t : Fin cfg0.N) (y : S1x256x1024.Idx) :
    (outsAt0 m c t.val t.isLt).1 y = attended m c (imgOf t) (y 1) (pixOf t (y 2)) := by
  conv_lhs => rw [eq_ix3 y]
  exact block_value m c t (y 0) (y 1) (y 2)

/-- What point `t` writes back is block `t` of the flattened result. -/
theorem flushed_eq (c : Dev nD) (t : Fin cfg0.N) :
    (dats m 0 c).flushed 9 t = ((cfg0.win 9).blk t).view.read (Elt Ideal) (flat m c) := by
  show (cfg0.win 9).cut (grid0.coords t) ((dats m 0 c).after 9 t) = _
  rw [after0_9]
  funext y
  show (outsAt0 m c t.val t.isLt).1 y = flat m c (((cfg0.win 9).blk t).view.emb y)
  refine (block_at m c t y).trans ?_
  obtain ⟨-, -, -, e3, e4, e5⟩ := moving_idx t
  have hy0 : (y 0).val < 1 := (y 0).isLt
  have a0 : (((cfg0.win 9).blk t).view.emb y) 0 = imgOf t := Fin.ext (by
    show win0_9.index t (0 : Fin 3) * 1 + 1 * (y 0).val = t.val / 4; omega)
  have a1 : (((cfg0.win 9).blk t).view.emb y) 1 = y 1 := Fin.ext (by
    show win0_9.index t (1 : Fin 3) * 256 + 1 * (y 1).val = (y 1).val; omega)
  have a2 : (((cfg0.win 9).blk t).view.emb y) 2 = pixOf t (y 2) := Fin.ext (by
    show win0_9.index t (2 : Fin 3) * 1024 + 1 * (y 2).val = 1024 * (t.val % 4) + (y 2).val; omega)
  show _ = attended m c ((((cfg0.win 9).blk t).view.emb y) 0) ((((cfg0.win 9).blk t).view.emb y) 1)
    ((((cfg0.win 9).blk t).view.emb y) 2)
  rw [a0, a1, a2]

/-- Every index of the flattened array is in the block of the point of its image and tile. -/
theorem cover (i : S8x256x4096.Idx) :
    ∃ t : Fin cfg0.N, (cfg0.win 9).flush t = true ∧ i ∈ ((cfg0.win 9).blk t).view.set := by
  have h0 : (i 0).val < 8 := (i 0).isLt
  have h1 : (i 1).val < 256 := (i 1).isLt
  have h2 : (i 2).val < 4096 := (i 2).isLt
  have hN := hN
  have ht : 4 * (i 0).val + (i 2).val / 1024 < cfg0.N := by omega
  refine ⟨⟨4 * (i 0).val + (i 2).val / 1024, ht⟩, flush0_9 _, ?_⟩
  show i ∈ ((View.whole main_v5).slice (win0_9.rect ⟨4 * (i 0).val + (i 2).val / 1024, ht⟩)).set
  rw [View.set_slice_whole, Rect.mem_set_unit]
  obtain ⟨-, -, -, e3, e4, e5⟩ := moving_idx ⟨4 * (i 0).val + (i 2).val / 1024, ht⟩
  have e3' : win0_9.index ⟨4 * (i 0).val + (i 2).val / 1024, ht⟩ (0 : Fin 3) = (4 * (i 0).val + (i 2).val / 1024) / 4 := e3
  have e5' : win0_9.index ⟨4 * (i 0).val + (i 2).val / 1024, ht⟩ (2 : Fin 3) = (4 * (i 0).val + (i 2).val / 1024) % 4 := e5
  intro a
  match a with
  | ⟨0, _⟩ =>
    show win0_9.index ⟨4 * (i 0).val + (i 2).val / 1024, ht⟩ (0 : Fin 3) * 1 ≤ (i 0).val
      ∧ (i 0).val < win0_9.index ⟨4 * (i 0).val + (i 2).val / 1024, ht⟩ (0 : Fin 3) * 1 + 1
    omega
  | ⟨1, _⟩ =>
    show win0_9.index ⟨4 * (i 0).val + (i 2).val / 1024, ht⟩ (1 : Fin 3) * 256 ≤ (i 1).val
      ∧ (i 1).val < win0_9.index ⟨4 * (i 0).val + (i 2).val / 1024, ht⟩ (1 : Fin 3) * 256 + 256
    omega
  | ⟨2, _⟩ =>
    show win0_9.index ⟨4 * (i 0).val + (i 2).val / 1024, ht⟩ (2 : Fin 3) * 1024 ≤ (i 2).val
      ∧ (i 2).val < win0_9.index ⟨4 * (i 0).val + (i 2).val / 1024, ht⟩ (2 : Fin 3) * 1024 + 1024
    omega

/-- The flattened array after the region. -/
theorem final (c : Dev nD) : (dats m 0 c).arrAt 9 cfg0.N = flat m c :=
  (dats m 0 c).arrAt_eq_of_cover 9 (flat m c) (fun t _ => flushed_eq m c t) cover

/-- The last line's result: the flattened array with its pixel axis unflattened. -/
theorem tail_eq (c : Dev nD) :
    Pipeline.afterTail₀ cfgs (dats m) 0 (V0 m) [hostOps1] c main_v6
      = shapeCast S8x256x64x64 (flat m c) shapeCasts_S8x256x4096_S8x256x64x64 := by
  unfold Pipeline.afterTail₀
  show StableHlo.after hostOps1 _ (Proc.devRef .tc main_v6) = _
  after_results
  have hw := (Pipeline.withArrays_arr spec0 launch0.win.arr_inj c (V0 m c) (fun w => (dats m 0 c).arrAt w cfg0.N) 9).trans
    (final m c)
  exact congrArg (fun x => shapeCast S8x256x64x64 x shapeCasts_S8x256x4096_S8x256x64x64) hw

/-- Unflattened, it is the attention of `Result` over the argument arrays. -/
theorem unflat_eq (c : Dev nD) :
    shapeCast S8x256x64x64 (flat m c) shapeCasts_S8x256x4096_S8x256x64x64
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨b, cc, h, w, rfl⟩ : ∃ (b : Fin 8) (cc : Fin 256) (h w : Fin 64), i = ix4 b cc h w := ⟨i 0, i 1, i 2, i 3, eq_ix4 i⟩
  refine (shapeCast_apply (flat m c) shapeCasts_S8x256x4096_S8x256x64x64 (ix4 b cc h w) (ix3 b cc (pix h w)) (by
    rw [Shape.rowMajor_val_three, Shape.rowMajor_val_four]
    show (b.val * 256 + cc.val) * 4096 + (64 * h.val + w.val) = ((b.val * 256 + cc.val) * 64 + h.val) * 64 + w.val
    omega)).trans ?_
  rfl

/-- The kernel's run: its result array ends at the attention of `Result`, its arguments unchanged. -/
theorem run : θ_run defs (onTc (τ := τ) (main (F := Ideal))) ⟨m, fun _ => 0, ρ⟩ (fun r => ∀ c : Dev nD,
      r.2.mem ((c.tc : Thread nD τ).loc main_v6) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(((h c).2 main_v6 (Pipeline.mem_restRefs_of main_v6 (by decide) (by decide))).trans
        ((tail_eq m c).trans (unflat_eq m c))),
      (((h c).2 main_arg0 (Pipeline.mem_restRefs_of main_arg0 (by decide) (by decide))).trans (W_main_arg0 m (dats m) c)),
      (((h c).1 1).trans (((dats m 0 c).arrAt_in 1 rfl _).trans ((A_eq m c 1).trans (V_main_arg1 m c)))),
      (((h c).2 main_arg2 (Pipeline.mem_restRefs_of main_arg2 (by decide) (by decide))).trans (W_main_arg2 m (dats m) c)),
      (((h c).1 3).trans (((dats m 0 c).arrAt_in 3 rfl _).trans ((A_eq m c 3).trans (V_main_arg3 m c)))),
      (((h c).2 main_arg4 (Pipeline.mem_restRefs_of main_arg4 (by decide) (by decide))).trans (W_main_arg4 m (dats m) c)),
      (((h c).1 5).trans (((dats m 0 c).arrAt_in 5 rfl _).trans ((A_eq m c 5).trans (V_main_arg5 m c)))),
      (((h c).2 main_arg6 (Pipeline.mem_restRefs_of main_arg6 (by decide) (by decide))).trans (W_main_arg6 m (dats m) c)),
      (((h c).1 7).trans (((dats m 0 c).arrAt_in 7 rfl _).trans ((A_eq m c 7).trans (V_main_arg7 m c)))),
      (((h c).2 main_arg8 (Pipeline.mem_restRefs_of main_arg8 (by decide) (by decide))).trans (W_main_arg8 m (dats m) c))⟩)
    (run_main m ρ)

end Cert.KernelIdeal.Final

end
-- ==== Proof.RefMath.lean ====
/-
  The reference program's stages read at coordinates: every stage of the host program is the corresponding stage of
  the attention written in `Attention`, over the same tables of coordinates.

  The host program flattens the two spatial axes (pixel 64·h + w), transposes to pixels by channels, mixes with the
  weights on the right (the products commute), takes the row maximum of the scores from minus infinity (and once more
  against minus infinity, which changes nothing), subtracts it, exponentiates, divides by the row sum taken from zero,
  weighs the values, mixes back, transposes and unflattens, and adds the input.
-/
import proofs.«103832_j36103495090206_2_alg».proof.Proof.Gen.ReferenceIdeal.Read
import proofs.«103832_j36103495090206_2_alg».proof.Proof.Result
import proofs.«103832_j36103495090206_2_alg».proof.Proof.LibIdx3
import proofs.«103832_j36103495090206_2_alg».proof.Proof.LibAxisReduce
import Idealize.ShloMosaic.Lib.ValueIdx
import Idealize.ShloMosaic.PureOps.Ideal.Laws

noncomputable section

namespace Cert.RefMath

open Idealize.ShloMosaic Idealize.ShloMosaic.ValueIdx Cert.ReferenceIdeal Cert.ReferenceIdeal.Gen Cert.ReferenceIdeal.Read Cert.Attn

variable (x0 : (⟨S8x256x64x64, .f32⟩ : BufTy).Contents (Elt Ideal)) (x1 : (⟨S128x256, .f32⟩ : BufTy).Contents (Elt Ideal)) (x2 : (⟨S128, .f32⟩ : BufTy).Contents (Elt Ideal)) (x3 : (⟨S128x256, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) (x7 : (⟨S256x128, .f32⟩ : BufTy).Contents (Elt Ideal)) (x8 : (⟨S256, .f32⟩ : BufTy).Contents (Elt Ideal))

/-- The transposed, flattened input at (image, pixel, channel). -/
theorem pixels_apply (b : Fin 8) (n : Fin 4096) (c : Fin 256) :
    val_main_v1 (F := Ideal) x0 (ix3 b n c) = image x0 b c n := by
  rw [val_main_v1_apply, val_main_v0_apply]
  unfold image
  refine congrArg x0 (funext fun a => Fin.ext ?_)
  match a with
  | ⟨0, _⟩ => show ((b.val * 256 + c.val) * 4096 + n.val) / 1048576 = b.val; omega
  | ⟨1, _⟩ => show ((b.val * 256 + c.val) * 4096 + n.val) / 4096 % 256 = c.val; omega
  | ⟨2, _⟩ => show ((b.val * 256 + c.val) * 4096 + n.val) / 64 % 64 = n.val / 64; omega
  | ⟨3, _⟩ => show ((b.val * 256 + c.val) * 4096 + n.val) % 64 = n.val % 64; omega

/-- The queries at (image, pixel, entry). -/
theorem queries_apply (b : Fin 8) (n : Fin 4096) (e : Fin 128) :
    val_main_v5 (F := Ideal) x0 x1 x2 (ix3 b n e)
      = mix (fun e c => x1 (ix2 e c)) (fun e => x2 (ix1 e)) (fun c => image x0 b c n) e := by
  rw [val_main_v5_apply, val_main_v2_apply, val_main_v4_apply, val_main_v3_apply, Ideal.addf_def]
  unfold mix
  refine congrArg₂ (· + ·) (Finset.sum_congr rfl fun k _ => ?_) (congrArg x2 (funext fun a => ?_))
  · rw [show lidx_main_v2 (ix3 b n e) k = ix3 b n k from funext fun a => Fin.ext (by
        match a with
        | ⟨0, _⟩ => rfl
        | ⟨1, _⟩ => rfl
        | ⟨2, _⟩ => rfl),
      show ridx_main_v2 (ix3 b n e) k = ix2 e k from funext fun a => Fin.ext (by
        match a with
        | ⟨0, _⟩ => rfl
        | ⟨1, _⟩ => rfl),
      pixels_apply, mul_comm]
  · match a with
    | ⟨0, _⟩ => rfl

/-- The keys at (image, pixel, entry). -/
theorem keys_apply (b : Fin 8) (n : Fin 4096) (e : Fin 128) :
    val_main_v9 (F := Ideal) x0 x3 x4 (ix3 b n e)
      = mix (fun e c => x3 (ix2 e c)) (fun e => x4 (ix1 e)) (fun c => image x0 b c n) e := by
  rw [val_main_v9_apply, val_main_v6_apply, val_main_v8_apply, val_main_v7_apply, Ideal.addf_def]
  unfold mix
  refine congrArg₂ (· + ·) (Finset.sum_congr rfl fun k _ => ?_) (congrArg x4 (funext fun a => ?_))
  · rw [show lidx_main_v6 (ix3 b n e) k = ix3 b n k from funext fun a => Fin.ext (by
        match a with
        | ⟨0, _⟩ => rfl
        | ⟨1, _⟩ => rfl
        | ⟨2, _⟩ => rfl),
      show ridx_main_v6 (ix3 b n e) k = ix2 e k from funext fun a => Fin.ext (by
        match a with
        | ⟨0, _⟩ => rfl
        | ⟨1, _⟩ => rfl),
      pixels_apply, mul_comm]
  · match a with
    | ⟨0, _⟩ => rfl

/-- The values at (image, pixel, entry). -/
theorem values_apply (b : Fin 8) (n : Fin 4096) (e : Fin 128) :
    val_main_v13 (F := Ideal) x0 x5 x6 (ix3 b n e)
      = mix (fun e c => x5 (ix2 e c)) (fun e => x6 (ix1 e)) (fun c => image x0 b c n) e := by
  rw [val_main_v13_apply, val_main_v10_apply, val_main_v12_apply, val_main_v11_apply, Ideal.addf_def]
  unfold mix
  refine congrArg₂ (· + ·) (Finset.sum_congr rfl fun k _ => ?_) (congrArg x6 (funext fun a => ?_))
  · rw [show lidx_main_v10 (ix3 b n e) k = ix3 b n k from funext fun a => Fin.ext (by
        match a with
        | ⟨0, _⟩ => rfl
        | ⟨1, _⟩ => rfl
        | ⟨2, _⟩ => rfl),
      show ridx_main_v10 (ix3 b n e) k = ix2 e k from funext fun a => Fin.ext (by
        match a with
        | ⟨0, _⟩ => rfl
        | ⟨1, _⟩ => rfl),
      pixels_apply, mul_comm]
  · match a with
    | ⟨0, _⟩ => rfl

/-- The tables of one image, as the attention takes them. -/
abbrev Q (b : Fin 8) (n : Fin 4096) : Fin 128 → EReal :=
  mix (fun e c => x1 (ix2 e c)) (fun e => x2 (ix1 e)) (fun c => image x0 b c n)
abbrev K (b : Fin 8) : Fin 128 → Fin 4096 → EReal :=
  fun e j => mix (fun e c => x3 (ix2 e c)) (fun e => x4 (ix1 e)) (fun c => image x0 b c j) e
abbrev V (b : Fin 8) : Fin 128 → Fin 4096 → EReal :=
  fun e j => mix (fun e c => x5 (ix2 e c)) (fun e => x6 (ix1 e)) (fun c => image x0 b c j) e

/-- The scores at (image, pixel, pixel). -/
theorem scores_apply (b : Fin 8) (n j : Fin 4096) :
    val_main_v14 (F := Ideal) x0 x1 x2 x3 x4 (ix3 b n j) = scores (Q x0 x1 x2 b n) (K x0 x3 x4 b) j := by
  rw [val_main_v14_apply]
  unfold scores
  refine Finset.sum_congr rfl fun e _ => ?_
  rw [show lidx_main_v14 (ix3 b n j) e = ix3 b n e from funext fun a => Fin.ext (by
        match a with
        | ⟨0, _⟩ => rfl
        | ⟨1, _⟩ => rfl
        | ⟨2, _⟩ => rfl),
    show ridx_main_v14 (ix3 b n j) e = ix3 b j e from funext fun a => Fin.ext (by
        match a with
        | ⟨0, _⟩ => rfl
        | ⟨1, _⟩ => rfl
        | ⟨2, _⟩ => rfl),
    queries_apply, keys_apply]

/-- Row (b, n) of a rank-3 array with `k` put back on the last axis. -/
theorem lift_last (h : S8x4096x4096.Reduces [2] S8x4096) (b : Fin 8) (n : Fin 4096) (k : Fin (S8x4096x4096.size 2)) :
    h.lift (ix2 b n) k = ix3 b n (⟨k.val, k.isLt⟩ : Fin 4096) := by
  funext a; apply Fin.ext
  fin_cases a <;> rfl

/-- The row maximum, taken from minus infinity and once more against minus infinity, is the row's supremum. -/
theorem rowmax_apply (b : Fin 8) (n : Fin 4096) :
    val_main_v17 (F := Ideal) x0 x1 x2 x3 x4 (ix2 b n) = ⨆ j : Fin 4096, scores (Q x0 x1 x2 b n) (K x0 x3 x4 b) j := by
  have hred : S8x4096x4096.Reduces [2] S8x4096 := by decide
  rw [val_main_v17_apply, val_main_v16_apply, val_main_cst_0_apply]
  unfold val_main_v15
  rw [Host.reduce_eq_fold_single (FloatOps.maximumf : Ideal .f32 → Ideal .f32 → Ideal .f32)
    (val_main_v14 (F := Ideal) x0 x1 x2 x3 x4 : S8x4096x4096.Idx → Ideal .f32) (val_main_cst (F := Ideal) : S_.Idx → Ideal .f32)
    reducesTo_S8x4096x4096_S8x4096_d2 hred h_S_ (ix2 b n)]
  have hf : ((val_main_v14 (F := Ideal) x0 x1 x2 x3 x4 : S8x4096x4096.Idx → Ideal .f32) ∘ hred.lift (ix2 b n))
      = fun k : Fin 4096 => scores (Q x0 x1 x2 b n) (K x0 x3 x4 b) k :=
    funext fun k => (congrArg _ (lift_last hred b n k)).trans (scores_apply x0 x1 x2 x3 x4 b n _)
  have hfold : Finset.fold (FloatOps.maximumf : Ideal .f32 → Ideal .f32 → Ideal .f32)
        ((val_main_cst (F := Ideal) : S_.Idx → Ideal .f32) (Shape.Idx.first h_S_))
        ((val_main_v14 (F := Ideal) x0 x1 x2 x3 x4 : S8x4096x4096.Idx → Ideal .f32) ∘ hred.lift (ix2 b n)) Finset.univ
      = ⨆ j : Fin 4096, scores (Q x0 x1 x2 b n) (K x0 x3 x4 b) j := by
    refine Eq.trans ?_ (Cert.AxisReduce.fold_max_neg_inf fun k : Fin 4096 => scores (Q x0 x1 x2 b n) (K x0 x3 x4 b) k)
    exact congrArg (fun f => Finset.fold max (FloatOps.ofBits (F := Ideal) .f32 0xFF800000#32) f
      (Finset.univ : Finset (Fin 4096))) hf
  rw [hfold, Ideal.maximumf_def, Ideal.ofBits_def, Cert.AxisReduce.ofBits_neg_inf]
  exact max_bot_left _

/-- The exponentials at (image, pixel, pixel). -/
theorem exps_apply (b : Fin 8) (n j : Fin 4096) :
    val_main_v21 (F := Ideal) x0 x1 x2 x3 x4 (ix3 b n j)
      = Ideal.exp (scores (Q x0 x1 x2 b n) (K x0 x3 x4 b) j - ⨆ j' : Fin 4096, scores (Q x0 x1 x2 b n) (K x0 x3 x4 b) j') := by
  rw [val_main_v21_apply, val_main_v20_apply, val_main_v19_apply, val_main_v18_apply, Ideal.hostUnary_exp_def,
    Ideal.subf_def, scores_apply,
    show idx_main_v18 (idx_main_v19 (ix3 b n j)) = ix2 b n from funext fun a => Fin.ext (by
        match a with
        | ⟨0, _⟩ => rfl
        | ⟨1, _⟩ => rfl),
    rowmax_apply]

/-- The row sums, taken from zero. -/
theorem rowsum_apply (b : Fin 8) (n : Fin 4096) :
    val_main_v22 (F := Ideal) x0 x1 x2 x3 x4 (ix2 b n)
      = ∑ j : Fin 4096, Ideal.exp (scores (Q x0 x1 x2 b n) (K x0 x3 x4 b) j
          - ⨆ j' : Fin 4096, scores (Q x0 x1 x2 b n) (K x0 x3 x4 b) j') := by
  rw [val_main_v22_apply, val_main_cst_1_apply, Ideal.ofBits_def, Ideal.ofBits_zero_f32, zero_add]
  refine Finset.sum_congr rfl fun k _ => ?_
  rw [show idx_main_v22 (ix2 b n) k = ix3 b n k from funext fun a => Fin.ext (by
        match a with
        | ⟨0, _⟩ => rfl
        | ⟨1, _⟩ => rfl
        | ⟨2, _⟩ => rfl),
    exps_apply]

/-- The normalised rows: the softmax of the scores. -/
theorem probs_apply (b : Fin 8) (n j : Fin 4096) :
    val_main_v25 (F := Ideal) x0 x1 x2 x3 x4 (ix3 b n j) = softmax (scores (Q x0 x1 x2 b n) (K x0 x3 x4 b)) j := by
  rw [val_main_v25_apply, val_main_v24_apply, val_main_v23_apply, Ideal.hostDivf_def, exps_apply,
    show idx_main_v23 (idx_main_v24 (ix3 b n j)) = ix2 b n from funext fun a => Fin.ext (by
        match a with
        | ⟨0, _⟩ => rfl
        | ⟨1, _⟩ => rfl),
    rowsum_apply]
  rfl

/-- The attended features at (image, pixel, entry). -/
theorem feats_apply (b : Fin 8) (n : Fin 4096) (e : Fin 128) :
    val_main_v26 (F := Ideal) x0 x1 x2 x3 x4 x5 x6 (ix3 b n e) = attend (Q x0 x1 x2 b n) (K x0 x3 x4 b) (V x0 x5 x6 b) e := by
  rw [val_main_v26_apply]
  unfold attend weigh
  refine Finset.sum_congr rfl fun j _ => ?_
  rw [show lidx_main_v26 (ix3 b n e) j = ix3 b n j from funext fun a => Fin.ext (by
        match a with
        | ⟨0, _⟩ => rfl
        | ⟨1, _⟩ => rfl
        | ⟨2, _⟩ => rfl),
    show ridx_main_v26 (ix3 b n e) j = ix3 b j e from funext fun a => Fin.ext (by
        match a with
        | ⟨0, _⟩ => rfl
        | ⟨1, _⟩ => rfl
        | ⟨2, _⟩ => rfl),
    probs_apply, values_apply]

/-- The features mixed back to the channels, with the output bias, at (image, pixel, channel). -/
theorem mixed_apply (b : Fin 8) (n : Fin 4096) (c : Fin 256) :
    val_main_v30 (F := Ideal) x0 x1 x2 x3 x4 x5 x6 x7 x8 (ix3 b n c)
      = mix (fun c e => x7 (ix2 c e)) (fun c => x8 (ix1 c)) (attend (Q x0 x1 x2 b n) (K x0 x3 x4 b) (V x0 x5 x6 b)) c := by
  rw [val_main_v30_apply, val_main_v27_apply, val_main_v29_apply, val_main_v28_apply, Ideal.addf_def]
  unfold mix
  refine congrArg₂ (· + ·) (Finset.sum_congr rfl fun e _ => ?_) (congrArg x8 (funext fun a => ?_))
  · rw [show lidx_main_v27 (ix3 b n c) e = ix3 b n e from funext fun a => Fin.ext (by
        match a with
        | ⟨0, _⟩ => rfl
        | ⟨1, _⟩ => rfl
        | ⟨2, _⟩ => rfl),
      show ridx_main_v27 (ix3 b n c) e = ix2 c e from funext fun a => Fin.ext (by
        match a with
        | ⟨0, _⟩ => rfl
        | ⟨1, _⟩ => rfl),
      feats_apply, mul_comm]
  · match a with
    | ⟨0, _⟩ => rfl

/-- The reference's result is the attention of `Result`. -/
theorem reference_eq :
    val_main_v33 (F := Ideal) x0 x1 x2 x3 x4 x5 x6 x7 x8 = result x0 x1 x2 x3 x4 x5 x6 x7 x8 := by
  funext i
  obtain ⟨b, c, h, w, rfl⟩ : ∃ (b : Fin 8) (c : Fin 256) (h w : Fin 64), i = ix4 b c h w := ⟨i 0, i 1, i 2, i 3, eq_ix4 i⟩
  rw [val_main_v33_apply, val_main_v32_apply, val_main_v31_apply, Ideal.addf_def,
    show idx_main_v31 (idx_main_v32 (ix4 b c h w)) = ix3 b (pix h w) c from funext fun a => Fin.ext (by
        match a with
        | ⟨0, _⟩ => show (((b.val * 256 + c.val) * 64 + h.val) * 64 + w.val) / 1048576 = b.val; omega
        | ⟨1, _⟩ => show (((b.val * 256 + c.val) * 64 + h.val) * 64 + w.val) % 4096 = 64 * h.val + w.val; omega
        | ⟨2, _⟩ => show (((b.val * 256 + c.val) * 64 + h.val) * 64 + w.val) / 4096 % 256 = c.val; omega),
    mixed_apply]
  unfold result pixel
  rw [image_pix]

end Cert.RefMath

end
-- ==== Proof.lean ====
/-
  Single-head attention over the 4096 pixels of each of eight images, with three channel mixings in, one out, and a
  residual connection: a kernel that keeps an image resident, computes its key and value tables once per image and
  attends one tile of 1024 query pixels per grid point, against the whole-array computation of the reference.

  On the extended reals both programs compute, at (image b, channel c, row h, column w), the function `Attn.result`:
  the shifted softmax of the scores of pixel 64·h + w against all pixels weighs the value vectors, the weighted sum is
  mixed back to the channels, and the pixel itself is added.  The two differ only in the order of the factors of three
  products (the reference multiplies the pixels by the weights, the kernel the weights by the pixels), in where the axes
  sit, and in the reference's one further maximum against minus infinity: commutativity of the product and the identity
  max ⊥ x = x join them, and no finiteness of the inputs is used.  `KernelFinal` reads the kernel's result array off its
  generated frame run; `RefMath` reads the reference's generated run stage by stage.  The ideal pass rewrote nothing, so
  `preserves` is trivial; the three frames are the generated ones.
-/
import proofs.«103832_j36103495090206_2_alg».proof.Defs
import proofs.«103832_j36103495090206_2_alg».proof.Proof.Gen.Kernel
import proofs.«103832_j36103495090206_2_alg».proof.Proof.Gen.Kernel.Skeleton
import proofs.«103832_j36103495090206_2_alg».proof.Proof.Gen.Kernel.Launch
import proofs.«103832_j36103495090206_2_alg».proof.Proof.Gen.Kernel.Points
import proofs.«103832_j36103495090206_2_alg».proof.Proof.Gen.Kernel.Frame
import proofs.«103832_j36103495090206_2_alg».proof.Proof.Gen.KernelIdeal
import proofs.«103832_j36103495090206_2_alg».proof.Proof.Gen.KernelIdeal.Skeleton
import proofs.«103832_j36103495090206_2_alg».proof.Proof.Gen.KernelIdeal.Launch
import proofs.«103832_j36103495090206_2_alg».proof.Proof.Gen.KernelIdeal.Points
import proofs.«103832_j36103495090206_2_alg».proof.Proof.Gen.KernelIdeal.Frame
import proofs.«103832_j36103495090206_2_alg».proof.Proof.Gen.ReferenceIdeal
import proofs.«103832_j36103495090206_2_alg».proof.Proof.Gen.ReferenceIdeal.Run
import proofs.«103832_j36103495090206_2_alg».proof.Proof.Gen.ReferenceIdeal.Read
import proofs.«103832_j36103495090206_2_alg».proof.Proof.Gen.Pre_finite_inputs
import proofs.«103832_j36103495090206_2_alg».proof.Proof.KernelFinal
import proofs.«103832_j36103495090206_2_alg».proof.Proof.RefMath
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `Attn.result` of argument arrays that agree. -/
theorem algebraic : Cert.algebraic_KernelIdeal_ReferenceIdeal := by
  intro m ρ m' ρ' _ hagree
  refine ⟨fun c => Cert.Attn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v33_eq, Cert.RefMath.reference_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
